-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 110
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x64, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x16, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x16, .f32⟩
  | .hbm, ⟨101, _⟩ => ⟨S1700000x1, .f32⟩
  | .hbm, ⟨102, _⟩ => ⟨S1700000x16, .f32⟩
  | .hbm, ⟨103, _⟩ => ⟨S1700000x16, .f32⟩
  | .hbm, ⟨104, _⟩ => ⟨S_, .f32⟩
  | .hbm, ⟨105, _⟩ => ⟨S100000x16, .f32⟩
  | .hbm, ⟨106, _⟩ => ⟨S1700000x1, .i32⟩
  | .hbm, ⟨107, _⟩ => ⟨S100000x16, .f32⟩
  | .hbm, ⟨108, _⟩ => ⟨S1x16, .f32⟩
  | .hbm, ⟨109, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x16, .f32⟩
  | 5 => ⟨S16, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S100000, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S_, .f32⟩
  | 24 => ⟨S1700000, .f32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S100000x64, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x1, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x16, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x16, .f32⟩
  | 105 => ⟨S1700000x1, .f32⟩
  | 106 => ⟨S1700000x16, .f32⟩
  | 107 => ⟨S1700000x16, .f32⟩
  | 108 => ⟨S_, .f32⟩
  | 109 => ⟨S100000x16, .f32⟩
  | 110 => ⟨S1700000x1, .i32⟩
  | 111 => ⟨S100000x16, .f32⟩
  | 112 => ⟨S1x16, .f32⟩
  | 113 => ⟨S100000x16, .f32⟩
  | 114 => ⟨S100000x16, .f32⟩
  | 115 => ⟨S_, .f32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x16, .f32⟩
  | 122 => ⟨S100000x16, .f32⟩
  | 123 => ⟨S100000x16, .f32⟩
  | 124 => ⟨S_, .f32⟩
  | 125 => ⟨S100000, .f32⟩
  | 126 => ⟨S100000x1, .f32⟩
  | 127 => ⟨S100000x1, .f32⟩
  | _ => ⟨S100000x128, .f32⟩

abbrev hbmTy0_1 (i : Nat) : BufTy := match i % 128 with
  | 0 => ⟨S100000x16, .f32⟩
  | 1 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call2_cst : Ref sig .tc := ⟨.hbm, 115, rfl⟩
abbrev main_call2_v0 : Ref sig .tc := ⟨.hbm, 116, rfl⟩
abbrev main_call2_cst_0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_cst_1 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_v85 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel program's run with its result NAMED. The program is four grid regions among stretches of host
  operations; its run leaves every unscoped buffer at the last segment boundary's contents, the fold `Gen.W8` of the
  stretches' results and the regions' write-backs over the launch memory. So the result buffer ends at that fold read
  at the result, and each argument as launched.
-/
import proofs.«103994_j41970420418160_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run : θ_run defs (onTc (τ := τ) (main (F := F))) ⟨m, fun _ => 0, ρ⟩ (fun r => ∀ c : Dev nD,
      r.2.mem ((c.tc : Thread nD τ).loc main_v81) = W8 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v81 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.RefRun.lean ====
/-
  The reference program's @main is a straight line of 124 host operations. Here the line is cut into seven
  consecutive pieces — the edge lists and the degree normalization; the first linear map; the first aggregation over
  the edges; the first bias and rectifier; the second linear map; the second aggregation; the second bias and the
  row-wise log-softmax — and its run is stated piece by piece: every weakly fair execution terminates with each buffer
  at the pieces' results folded, in order, over the launch contents.
-/
import proofs.«103994_j41970420418160_1_alg».proof.Proof.Gen.ReferenceIdeal
import proofs.«103994_j41970420418160_1_alg».proof.Proof.LibAfterAppend
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Operations 0 to 27: the edge lists with the self loops appended, the in-degree and its inverse square root. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x00000000#32),
    unary main_cst main_v7 (broadcastInDim S100000 ![] bcast_S_S100000 : (⟨S_, .f32⟩ : BufTy).Contents (Elt F) → (⟨S100000, .f32⟩ : BufTy).Contents (Elt F)),
    nullary main_c (constantI S_ 32 0#32),
    unary main_c main_v8 (broadcastInDim S1700000 ![] bcast_S_S1700000 : (⟨S_, .i32⟩ : BufTy).Contents (Elt F) → (⟨S1700000, .i32⟩ : BufTy).Contents (Elt F)),
    binary main_v6 main_v8 main_v9 (cmpi .slt : (⟨S1700000, .i32⟩ : BufTy).Contents (Elt F) → (⟨S1700000, .i32⟩ : BufTy).Contents (Elt F) → (⟨S1700000, .i1⟩ : BufTy).Contents (Elt F)),
    nullary main_c_0 (constantI S_ 32 100000#32),
    unary main_c_0 main_v10 (broadcastInDim S1700000 ![] bcast_S_S1700000 : (⟨S_, .i32⟩ : BufTy).Contents (Elt F) → (⟨S1700000, .i32⟩ : BufTy).Contents (Elt F)),
    binary main_v6 main_v10 main_v11 (addi : (⟨S1700000, .i32⟩ : BufTy).Contents (Elt F) → (⟨S1700000, .i32⟩ : BufTy).Contents (Elt F) → (⟨S1700000, .i32⟩ : BufTy).Contents (Elt F)),
    ternary main_v9 main_v11 main_v6 main_v12 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v12 main_v13 (broadcastInDim S1700000x1 ![0] bcast_S1700000_S1700000x1_0 : (⟨S1700000, .i32⟩ : BufTy).Contents (Elt F) → (⟨S1700000x1, .i32⟩ : BufTy).Contents (Elt F)),
    nullary main_cst_1 (constant S_ .f32 0x3F800000#32),
    unary main_cst_1 main_v14 (broadcastInDim S1700000 ![] bcast_S_S1700000 : (⟨S_, .f32⟩ : BufTy).Contents (Elt F) → (⟨S1700000, .f32⟩ : BufTy).Contents (Elt F)),
    ternary main_v7 main_v13 main_v14 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    unary main_v15 main_v18 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v17) (TRef.of (T := ⟨S100000, .f32⟩) main_v18) (TRef.of (T := ⟨S100000, .f32⟩) main_call0_v1) (TRef.of (T := ⟨S100000, .f32⟩) main_v19) select ]
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
theorem opsA_fresh : ∀ op ∈ (opsA : List (HloOp τ sig (Elt F))), op.fresh = ∅ := by
  intro _ h; (repeat (cases h with | head => rfl | tail _ h => ?_)); exact nomatch h

/-- Operations 28 to 28: the first linear map. -/
abbrev opsD1 : List (HloOp τ sig (Elt F)) :=
  [ binary main_arg0 main_arg2 main_v20 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
theorem opsD1_sub : (opsD1 : List (HloOp τ sig (Elt F))).Forall fun op => op.bufs ⊆ tcRefs τ sig :=
  binary_bufs_sub ..
theorem opsD1_fresh : ∀ op ∈ (opsD1 : List (HloOp τ sig (Elt F))), op.fresh = ∅ := by
  intro _ h; (repeat (cases h with | head => rfl | tail _ h => ?_)); exact nomatch h

/-- Operations 29 to 63: the first normalized aggregation over the edges. -/
abbrev opsB : List (HloOp τ sig (Elt F)) :=
  [ nullary main_c_4 (constantI S_ 32 0#32),
    unary main_c_4 main_v21 (broadcastInDim S1700000 ![] bcast_S_S1700000 : (⟨S_, .i32⟩ : BufTy).Contents (Elt F) → (⟨S1700000, .i32⟩ : BufTy).Contents (Elt F)),
    binary main_v3 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v23 (broadcastInDim S1700000 ![] bcast_S_S1700000 : (⟨S_, .i32⟩ : BufTy).Contents (Elt F) → (⟨S1700000, .i32⟩ : BufTy).Contents (Elt F)),
    binary main_v3 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v3 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v19 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_6 (constantI S_ 32 0#32),
    unary main_c_6 main_v28 (broadcastInDim S1700000 ![] bcast_S_S1700000 : (⟨S_, .i32⟩ : BufTy).Contents (Elt F) → (⟨S1700000, .i32⟩ : BufTy).Contents (Elt F)),
    binary main_v6 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v30 (broadcastInDim S1700000 ![] bcast_S_S1700000 : (⟨S_, .i32⟩ : BufTy).Contents (Elt F) → (⟨S1700000, .i32⟩ : BufTy).Contents (Elt F)),
    binary main_v6 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v6 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v19 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v27 main_v34 main_v35 (mulf : (⟨S1700000, .f32⟩ : BufTy).Contents (Elt F) → (⟨S1700000, .f32⟩ : BufTy).Contents (Elt F) → (⟨S1700000, .f32⟩ : BufTy).Contents (Elt F)),
    nullary main_c_8 (constantI S_ 32 0#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v38 (broadcastInDim S1700000 ![] bcast_S_S1700000 : (⟨S_, .i32⟩ : BufTy).Contents (Elt F) → (⟨S1700000, .i32⟩ : BufTy).Contents (Elt F)),
    binary main_v3 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v20 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v35 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x64 ![0, 1] bcast_S1700000x1_S1700000x64_0_1 : (⟨S1700000x1, .f32⟩ : BufTy).Contents (Elt F) → (⟨S1700000x64, .f32⟩ : BufTy).Contents (Elt F)),
    binary main_v42 main_v44 main_v45 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v46 (broadcastInDim S100000x64 ![] bcast_S_S100000x64 : (⟨S_, .f32⟩ : BufTy).Contents (Elt F) → (⟨S100000x64, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsB_fresh : ∀ op ∈ (opsB : List (HloOp τ sig (Elt F))), op.fresh = ∅ := by
  intro _ h; (repeat (cases h with | head => rfl | tail _ h => ?_)); exact nomatch h

/-- Operations 64 to 69: the first bias and the rectifier. -/
abbrev opsE1 : List (HloOp τ sig (Elt F)) :=
  [ unary main_arg3 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v48 main_v50 main_v51 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v51) (TRef.of (T := ⟨S100000x64, .f32⟩) main_call1_v0) (TRef.of (T := ⟨S100000x64, .f32⟩) main_v52) maximumf ]
theorem opsE1_sub : (opsE1 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem opsE1_fresh : ∀ op ∈ (opsE1 : List (HloOp τ sig (Elt F))), op.fresh = ∅ := by
  intro _ h; (repeat (cases h with | head => rfl | tail _ h => ?_)); exact nomatch h

/-- Operations 70 to 70: the second linear map. -/
abbrev opsD2 : List (HloOp τ sig (Elt F)) :=
  [ binary main_v52 main_arg4 main_v53 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]
theorem opsD2_sub : (opsD2 : List (HloOp τ sig (Elt F))).Forall fun op => op.bufs ⊆ tcRefs τ sig :=
  binary_bufs_sub ..
theorem opsD2_fresh : ∀ op ∈ (opsD2 : List (HloOp τ sig (Elt F))), op.fresh = ∅ := by
  intro _ h; (repeat (cases h with | head => rfl | tail _ h => ?_)); exact nomatch h

/-- Operations 71 to 105: the second normalized aggregation over the edges. -/
abbrev opsC : List (HloOp τ sig (Elt F)) :=
  [ nullary main_c_11 (constantI S_ 32 0#32),
    unary main_c_11 main_v54 (broadcastInDim S1700000 ![] bcast_S_S1700000 : (⟨S_, .i32⟩ : BufTy).Contents (Elt F) → (⟨S1700000, .i32⟩ : BufTy).Contents (Elt F)),
    binary main_v3 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v56 (broadcastInDim S1700000 ![] bcast_S_S1700000 : (⟨S_, .i32⟩ : BufTy).Contents (Elt F) → (⟨S1700000, .i32⟩ : BufTy).Contents (Elt F)),
    binary main_v3 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v3 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v19 main_v59 main_v60 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_13 (constantI S_ 32 0#32),
    unary main_c_13 main_v61 (broadcastInDim S1700000 ![] bcast_S_S1700000 : (⟨S_, .i32⟩ : BufTy).Contents (Elt F) → (⟨S1700000, .i32⟩ : BufTy).Contents (Elt F)),
    binary main_v6 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v63 (broadcastInDim S1700000 ![] bcast_S_S1700000 : (⟨S_, .i32⟩ : BufTy).Contents (Elt F) → (⟨S1700000, .i32⟩ : BufTy).Contents (Elt F)),
    binary main_v6 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v6 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v19 main_v66 main_v67 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v60 main_v67 main_v68 (mulf : (⟨S1700000, .f32⟩ : BufTy).Contents (Elt F) → (⟨S1700000, .f32⟩ : BufTy).Contents (Elt F) → (⟨S1700000, .f32⟩ : BufTy).Contents (Elt F)),
    nullary main_c_15 (constantI S_ 32 0#32),
    unary main_c_15 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v53 main_v74 main_v75 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v68 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x16 ![0, 1] bcast_S1700000x1_S1700000x16_0_1 : (⟨S1700000x1, .f32⟩ : BufTy).Contents (Elt F) → (⟨S1700000x16, .f32⟩ : BufTy).Contents (Elt F)),
    binary main_v75 main_v77 main_v78 (mulf : (⟨S1700000x16, .f32⟩ : BufTy).Contents (Elt F) → (⟨S1700000x16, .f32⟩ : BufTy).Contents (Elt F) → (⟨S1700000x16, .f32⟩ : BufTy).Contents (Elt F)),
    nullary main_cst_17 (constant S_ .f32 0x00000000#32),
    unary main_cst_17 main_v79 (broadcastInDim S100000x16 ![] bcast_S_S100000x16 : (⟨S_, .f32⟩ : BufTy).Contents (Elt F) → (⟨S100000x16, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsC_fresh : ∀ op ∈ (opsC : List (HloOp τ sig (Elt F))), op.fresh = ∅ := by
  intro _ h; (repeat (cases h with | head => rfl | tail _ h => ?_)); exact nomatch h

/-- Operations 106 to 123: the second bias and the row-wise log-softmax. -/
abbrev opsE2 : List (HloOp τ sig (Elt F)) :=
  [ unary main_arg5 main_v82 (broadcastInDim S1x16 ![1] bcast_S16_S1x16_1 : (⟨S16, .f32⟩ : BufTy).Contents (Elt F) → (⟨S1x16, .f32⟩ : BufTy).Contents (Elt F)),
    unary main_v82 main_v83 (broadcastInDim S100000x16 ![0, 1] bcast_S1x16_S100000x16_0_1 : (⟨S1x16, .f32⟩ : BufTy).Contents (Elt F) → (⟨S100000x16, .f32⟩ : BufTy).Contents (Elt F)),
    binary main_v81 main_v83 main_v84 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0xFF800000#32),
    TRef.binary (TRef.of (T := ⟨S100000x16, .f32⟩) main_v84) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v84) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v85) subf ]
theorem opsE2_sub : (opsE2 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsE2_fresh : ∀ op ∈ (opsE2 : List (HloOp τ sig (Elt F))), op.fresh = ∅ := by
  intro _ h; (repeat (cases h with | head => rfl | tail _ h => ?_)); exact nomatch h

/-- The whole line: the seven pieces in order. -/
abbrev ops : List (HloOp τ sig (Elt F)) := opsA ++ (opsD1 ++ (opsB ++ (opsE1 ++ (opsD2 ++ (opsC ++ opsE2)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (opsA : List (HloOp τ sig (Elt F))) ∨ op ∈ (opsD1 : List (HloOp τ sig (Elt F))) ∨ op ∈ (opsB : List (HloOp τ sig (Elt F)))
      ∨ op ∈ (opsE1 : List (HloOp τ sig (Elt F))) ∨ op ∈ (opsD2 : List (HloOp τ sig (Elt F))) ∨ op ∈ (opsC : List (HloOp τ sig (Elt F)))
      ∨ op ∈ (opsE2 : List (HloOp τ sig (Elt F))) := by
  simpa only [ops, List.mem_append] using h

theorem ops_sub : (ops : List (HloOp τ sig (Elt F))).Forall fun op => op.bufs ⊆ tcRefs τ sig :=
  List.forall_iff_forall_mem.mpr fun op h => by
    rcases mem_ops h with h | h | h | h | h | h | h
    · exact List.forall_iff_forall_mem.mp opsA_sub op h
    · exact List.forall_iff_forall_mem.mp opsD1_sub op h
    · exact List.forall_iff_forall_mem.mp opsB_sub op h
    · exact List.forall_iff_forall_mem.mp opsE1_sub op h
    · exact List.forall_iff_forall_mem.mp opsD2_sub op h
    · exact List.forall_iff_forall_mem.mp opsC_sub op h
    · exact List.forall_iff_forall_mem.mp opsE2_sub op h

theorem ops_fresh : ∀ op ∈ (ops : List (HloOp τ sig (Elt F))), op.fresh = ∅ := fun op h => by
  rcases mem_ops h with h | h | h | h | h | h | h
  · exact opsA_fresh op h
  · exact opsD1_fresh op h
  · exact opsB_fresh op h
  · exact opsE1_fresh op h
  · exact opsD2_fresh op h
  · exact opsC_fresh op h
  · exact opsE2_fresh op h

/-- The buffer contents after the whole line, from contents `U`: the pieces folded in order. -/
abbrev fin (U : Valuation τ sig (Elt F)) : Valuation τ sig (Elt F) :=
  after opsE2 (after opsC (after opsD2 (after opsE1 (after opsB (after opsD1 (after opsA U))))))

/-- The run: from any memory with zero counters every weakly fair execution of @main terminates, and each buffer ends
    at the seven pieces' results folded over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin (launchContents m d) (Proc.devRef .tc b) :=
  (θ_run defs _ _).mono (fun _ h d b => (h d b).trans (by
      show after ops _ _ = _
      rw [Cert.LibAfterAppend.after_append, Cert.LibAfterAppend.after_append, Cert.LibAfterAppend.after_append,
        Cert.LibAfterAppend.after_append, Cert.LibAfterAppend.after_append, Cert.LibAfterAppend.after_append]))
    (run_seq scopedRefs_eq scopedSems_eq defs main (fun _ => ops) main_eq (fun _ => ops_sub) m ρ (fun _ => ops_fresh))

end Cert.ReferenceIdeal.Line

end
-- ==== Proof.RefArgs.lean ====
/-
  No operation of the reference's line writes an argument array: after the whole line each of the six argument buffers
  holds what it held at the launch.
-/
import proofs.«103994_j41970420418160_1_alg».proof.Proof.RefRun

noncomputable section

namespace Cert.Bridge

open Idealize.ShloMosaic Idealize.ShloMosaic.TcCoe Idealize.SL.Sem Idealize.ShloMosaic.StableHlo
open Cert

variable {F : FTy → Type} [FloatOps F]

set_option maxHeartbeats 16000000 in
theorem fin_arg0 (U : Valuation ReferenceIdeal.τ ReferenceIdeal.sig (Elt F)) :
    ReferenceIdeal.Line.fin U ReferenceIdeal.main_arg0 = U ReferenceIdeal.main_arg0 := by
  after_results_simp <;> rfl
set_option maxHeartbeats 16000000 in
theorem fin_arg1 (U : Valuation ReferenceIdeal.τ ReferenceIdeal.sig (Elt F)) :
    ReferenceIdeal.Line.fin U ReferenceIdeal.main_arg1 = U ReferenceIdeal.main_arg1 := by
  after_results_simp <;> rfl
set_option maxHeartbeats 16000000 in
theorem fin_arg2 (U : Valuation ReferenceIdeal.τ ReferenceIdeal.sig (Elt F)) :
    ReferenceIdeal.Line.fin U ReferenceIdeal.main_arg2 = U ReferenceIdeal.main_arg2 := by
  after_results_simp <;> rfl
set_option maxHeartbeats 16000000 in
theorem fin_arg3 (U : Valuation ReferenceIdeal.τ ReferenceIdeal.sig (Elt F)) :
    ReferenceIdeal.Line.fin U ReferenceIdeal.main_arg3 = U ReferenceIdeal.main_arg3 := by
  after_results_simp <;> rfl
set_option maxHeartbeats 16000000 in
theorem fin_arg4 (U : Valuation ReferenceIdeal.τ ReferenceIdeal.sig (Elt F)) :
    ReferenceIdeal.Line.fin U ReferenceIdeal.main_arg4 = U ReferenceIdeal.main_arg4 := by
  after_results_simp <;> rfl
set_option maxHeartbeats 16000000 in
theorem fin_arg5 (U : Valuation ReferenceIdeal.τ ReferenceIdeal.sig (Elt F)) :
    ReferenceIdeal.Line.fin U ReferenceIdeal.main_arg5 = U ReferenceIdeal.main_arg5 := by
  after_results_simp <;> rfl

end Cert.Bridge

end
-- ==== Proof.Spec.lean ====
/-
  The four dense stages of a two-layer graph convolution, each as ONE function of whole arrays over the
  extended reals: the two linear maps (every row of a feature matrix times a weight matrix), the bias
  followed by the rectifier, and the bias followed by the row-wise log-softmax
  (x - max x - log (sum (exp (x - max x))) along each row of sixteen entries).
-/
import Idealize.ShloMosaic.PureOps.Ideal
import Idealize.ShloMosaic.Lib.ValueIdx

noncomputable section

namespace Cert.Gcn

open Idealize.ShloMosaic

abbrev N128 : Shape := ⟨2, ![100000, 128]⟩
abbrev N64 : Shape := ⟨2, ![100000, 64]⟩
abbrev N16 : Shape := ⟨2, ![100000, 16]⟩
abbrev N1 : Shape := ⟨2, ![100000, 1]⟩
abbrev NV : Shape := ⟨1, ![100000]⟩
abbrev W1s : Shape := ⟨2, ![128, 64]⟩
abbrev W2s : Shape := ⟨2, ![64, 16]⟩
abbrev B1s : Shape := ⟨2, ![1, 64]⟩
abbrev B2s : Shape := ⟨2, ![1, 16]⟩
abbrev Sc : Shape := ⟨0, ![]⟩

/-- Every row of a 100000 x 128 matrix times a 128 x 64 matrix. -/
def lin1 (w : DotDims.WF N128 W1s N64 [1] [0] [0] [1] [] [])
    (X : FVec Ideal N128 .f32) (W : FVec Ideal W1s .f32) : FVec Ideal N64 .f32 :=
  Host.dotGeneral (F := Ideal) (⟨[1], [0], [0], [1], [], [], w⟩ : DotDims N128 W1s N64) none X W

/-- Every row of a 100000 x 64 matrix times a 64 x 16 matrix. -/
def lin2 (w : DotDims.WF N64 W2s N16 [1] [0] [0] [1] [] [])
    (X : FVec Ideal N64 .f32) (W : FVec Ideal W2s .f32) : FVec Ideal N16 .f32 :=
  Host.dotGeneral (F := Ideal) (⟨[1], [0], [0], [1], [], [], w⟩ : DotDims N64 W2s N16) none X W

/-- A row of 64 biases added to every row, then the maximum with zero. -/
def biasRelu (hb : B1s.BroadcastsInDim N64 (![0, 1] : Fin 2 → Fin N64.rank))
    (hz : Sc.BroadcastsInDim N64 (![] : Fin 0 → Fin N64.rank))
    (agg : FVec Ideal N64 .f32) (brow : FVec Ideal B1s .f32) : FVec Ideal N64 .f32 :=
  maximumf (addf agg (broadcastInDim N64 ![0, 1] hb brow))
    (broadcastInDim N64 ![] hz (constant (F := Ideal) Sc .f32 0x00000000#32))

/-- A row of 16 biases added to every row. -/
def biased16 (hb : B2s.BroadcastsInDim N16 (![0, 1] : Fin 2 → Fin N16.rank))
    (agg : FVec Ideal N16 .f32) (brow : FVec Ideal B2s .f32) : FVec Ideal N16 .f32 :=
  addf agg (broadcastInDim N16 ![0, 1] hb brow)

/-- Each row's maximum (never below minus infinity). -/
def rowMax (hr : N16.ReducesTo [1] NV) (hu : 0 < Sc.numel)
    (hs : Sc.BroadcastsInDim NV (![] : Fin 0 → Fin NV.rank)) (x : FVec Ideal N16 .f32) : FVec Ideal NV .f32 :=
  maximumf (broadcastInDim NV ![] hs (constant (F := Ideal) Sc .f32 0xFF800000#32))
    (Host.reduce FloatOps.maximumf x (constant (F := Ideal) Sc .f32 0xFF800000#32) hr hu)

/-- A vector of 100000 entries laid along every row of sixteen. -/
def alongRows (hc : NV.BroadcastsInDim N1 (![0] : Fin 1 → Fin N1.rank))
    (hcb : N1.BroadcastsInDim N16 (![0, 1] : Fin 2 → Fin N16.rank)) (v : FVec Ideal NV .f32) : FVec Ideal N16 .f32 :=
  broadcastInDim N16 ![0, 1] hcb (broadcastInDim N1 ![0] hc v)

/-- Each entry minus its row's maximum. -/
def shifted (hr : N16.ReducesTo [1] NV) (hu : 0 < Sc.numel)
    (hs : Sc.BroadcastsInDim NV (![] : Fin 0 → Fin NV.rank))
    (hc : NV.BroadcastsInDim N1 (![0] : Fin 1 → Fin N1.rank))
    (hcb : N1.BroadcastsInDim N16 (![0, 1] : Fin 2 → Fin N16.rank)) (x : FVec Ideal N16 .f32) : FVec Ideal N16 .f32 :=
  subf x (alongRows hc hcb (rowMax hr hu hs x))

/-- The row-wise log-softmax: the shifted entries minus the logarithm of the row's sum of their exponentials. -/
def logSoftmax (hr : N16.ReducesTo [1] NV) (hu : 0 < Sc.numel)
    (hs : Sc.BroadcastsInDim NV (![] : Fin 0 → Fin NV.rank))
    (hc : NV.BroadcastsInDim N1 (![0] : Fin 1 → Fin N1.rank))
    (hcb : N1.BroadcastsInDim N16 (![0, 1] : Fin 2 → Fin N16.rank)) (x : FVec Ideal N16 .f32) : FVec Ideal N16 .f32 :=
  subf (shifted hr hu hs hc hcb x)
    (broadcastInDim N16 ![0, 1] hcb (Host.log (broadcastInDim N1 ![0] hc
      (Host.reduceAdd (Host.exp (shifted hr hu hs hc hcb x)) (constant (F := Ideal) Sc .f32 0x00000000#32) hr hu))))

/-- The bias, then the row-wise log-softmax. -/
def biasLogSoftmax (hb : B2s.BroadcastsInDim N16 (![0, 1] : Fin 2 → Fin N16.rank))
    (hr : N16.ReducesTo [1] NV) (hu : 0 < Sc.numel)
    (hs : Sc.BroadcastsInDim NV (![] : Fin 0 → Fin NV.rank))
    (hc : NV.BroadcastsInDim N1 (![0] : Fin 1 → Fin N1.rank))
    (hcb : N1.BroadcastsInDim N16 (![0, 1] : Fin 2 → Fin N16.rank))
    (agg : FVec Ideal N16 .f32) (brow : FVec Ideal B2s .f32) : FVec Ideal N16 .f32 :=
  logSoftmax hr hu hs hc hcb (biased16 hb agg brow)

end Cert.Gcn

end
-- ==== Proof.Keeps.lean ====
/-
  What a stretch of host operations does not write it leaves alone. For each piece of the reference's line and each
  stretch of the kernel program's host operations, the buffers that later pieces still read — the argument arrays, the
  two edge lists, the normalizers — hold after the piece what they held before it.
-/
import proofs.«103994_j41970420418160_1_alg».proof.Proof.Gen.KernelIdeal.Launch
import proofs.«103994_j41970420418160_1_alg».proof.Proof.RefRun
import proofs.«103994_j41970420418160_1_alg».proof.Proof.Spec

noncomputable section

namespace Cert.Bridge

open Idealize.ShloMosaic Idealize.ShloMosaic.TcCoe Idealize.SL.Sem Idealize.ShloMosaic.StableHlo
open Cert

set_option maxHeartbeats 8000000 in
theorem keepA_arg0 (U : Valuation ReferenceIdeal.τ ReferenceIdeal.sig (Elt Ideal)) : after ReferenceIdeal.Line.opsA U ReferenceIdeal.main_arg0 = U ReferenceIdeal.main_arg0 := by
  after_results_simp <;> rfl
set_option maxHeartbeats 8000000 in
theorem keepA_arg1 (U : Valuation ReferenceIdeal.τ ReferenceIdeal.sig (Elt Ideal)) : after ReferenceIdeal.Line.opsA U ReferenceIdeal.main_arg1 = U ReferenceIdeal.main_arg1 := by
  after_results_simp <;> rfl
set_option maxHeartbeats 8000000 in
theorem keepA_arg2 (U : Valuation ReferenceIdeal.τ ReferenceIdeal.sig (Elt Ideal)) : after ReferenceIdeal.Line.opsA U ReferenceIdeal.main_arg2 = U ReferenceIdeal.main_arg2 := by
  after_results_simp <;> rfl
set_option maxHeartbeats 8000000 in
theorem keepA_arg3 (U : Valuation ReferenceIdeal.τ ReferenceIdeal.sig (Elt Ideal)) : after ReferenceIdeal.Line.opsA U ReferenceIdeal.main_arg3 = U ReferenceIdeal.main_arg3 := by
  after_results_simp <;> rfl
set_option maxHeartbeats 8000000 in
theorem keepA_arg4 (U : Valuation ReferenceIdeal.τ ReferenceIdeal.sig (Elt Ideal)) : after ReferenceIdeal.Line.opsA U ReferenceIdeal.main_arg4 = U ReferenceIdeal.main_arg4 := by
  after_results_simp <;> rfl
set_option maxHeartbeats 8000000 in
theorem keepA_arg5 (U : Valuation ReferenceIdeal.τ ReferenceIdeal.sig (Elt Ideal)) : after ReferenceIdeal.Line.opsA U ReferenceIdeal.main_arg5 = U ReferenceIdeal.main_arg5 := by
  after_results_simp <;> rfl
set_option maxHeartbeats 8000000 in
theorem keepD1_arg3 (U : Valuation ReferenceIdeal.τ ReferenceIdeal.sig (Elt Ideal)) : after ReferenceIdeal.Line.opsD1 U ReferenceIdeal.main_arg3 = U ReferenceIdeal.main_arg3 := by
  after_results_simp <;> rfl
set_option maxHeartbeats 8000000 in
theorem keepD1_arg4 (U : Valuation ReferenceIdeal.τ ReferenceIdeal.sig (Elt Ideal)) : after ReferenceIdeal.Line.opsD1 U ReferenceIdeal.main_arg4 = U ReferenceIdeal.main_arg4 := by
  after_results_simp <;> rfl
set_option maxHeartbeats 8000000 in
theorem keepD1_arg5 (U : Valuation ReferenceIdeal.τ ReferenceIdeal.sig (Elt Ideal)) : after ReferenceIdeal.Line.opsD1 U ReferenceIdeal.main_arg5 = U ReferenceIdeal.main_arg5 := by
  after_results_simp <;> rfl
set_option maxHeartbeats 8000000 in
theorem keepD1_v3 (U : Valuation ReferenceIdeal.τ ReferenceIdeal.sig (Elt Ideal)) : after ReferenceIdeal.Line.opsD1 U ReferenceIdeal.main_v3 = U ReferenceIdeal.main_v3 := by
  after_results_simp <;> rfl
set_option maxHeartbeats 8000000 in
theorem keepD1_v6 (U : Valuation ReferenceIdeal.τ ReferenceIdeal.sig (Elt Ideal)) : after ReferenceIdeal.Line.opsD1 U ReferenceIdeal.main_v6 = U ReferenceIdeal.main_v6 := by
  after_results_simp <;> rfl
set_option maxHeartbeats 8000000 in
theorem keepD1_v19 (U : Valuation ReferenceIdeal.τ ReferenceIdeal.sig (Elt Ideal)) : after ReferenceIdeal.Line.opsD1 U ReferenceIdeal.main_v19 = U ReferenceIdeal.main_v19 := by
  after_results_simp <;> rfl
set_option maxHeartbeats 8000000 in
theorem keepB_arg3 (U : Valuation ReferenceIdeal.τ ReferenceIdeal.sig (Elt Ideal)) : after ReferenceIdeal.Line.opsB U ReferenceIdeal.main_arg3 = U ReferenceIdeal.main_arg3 := by
  after_results_simp <;> rfl
set_option maxHeartbeats 8000000 in
theorem keepB_arg4 (U : Valuation ReferenceIdeal.τ ReferenceIdeal.sig (Elt Ideal)) : after ReferenceIdeal.Line.opsB U ReferenceIdeal.main_arg4 = U ReferenceIdeal.main_arg4 := by
  after_results_simp <;> rfl
set_option maxHeartbeats 8000000 in
theorem keepB_arg5 (U : Valuation ReferenceIdeal.τ ReferenceIdeal.sig (Elt Ideal)) : after ReferenceIdeal.Line.opsB U ReferenceIdeal.main_arg5 = U ReferenceIdeal.main_arg5 := by
  after_results_simp <;> rfl
set_option maxHeartbeats 8000000 in
theorem keepB_v3 (U : Valuation ReferenceIdeal.τ ReferenceIdeal.sig (Elt Ideal)) : after ReferenceIdeal.Line.opsB U ReferenceIdeal.main_v3 = U ReferenceIdeal.main_v3 := by
  after_results_simp <;> rfl
set_option maxHeartbeats 8000000 in
theorem keepB_v6 (U : Valuation ReferenceIdeal.τ ReferenceIdeal.sig (Elt Ideal)) : after ReferenceIdeal.Line.opsB U ReferenceIdeal.main_v6 = U ReferenceIdeal.main_v6 := by
  after_results_simp <;> rfl
set_option maxHeartbeats 8000000 in
theorem keepB_v19 (U : Valuation ReferenceIdeal.τ ReferenceIdeal.sig (Elt Ideal)) : after ReferenceIdeal.Line.opsB U ReferenceIdeal.main_v19 = U ReferenceIdeal.main_v19 := by
  after_results_simp <;> rfl
set_option maxHeartbeats 8000000 in
theorem keepE1_arg4 (U : Valuation ReferenceIdeal.τ ReferenceIdeal.sig (Elt Ideal)) : after ReferenceIdeal.Line.opsE1 U ReferenceIdeal.main_arg4 = U ReferenceIdeal.main_arg4 := by
  after_results_simp <;> rfl
set_option maxHeartbeats 8000000 in
theorem keepE1_arg5 (U : Valuation ReferenceIdeal.τ ReferenceIdeal.sig (Elt Ideal)) : after ReferenceIdeal.Line.opsE1 U ReferenceIdeal.main_arg5 = U ReferenceIdeal.main_arg5 := by
  after_results_simp <;> rfl
set_option maxHeartbeats 8000000 in
theorem keepE1_v3 (U : Valuation ReferenceIdeal.τ ReferenceIdeal.sig (Elt Ideal)) : after ReferenceIdeal.Line.opsE1 U ReferenceIdeal.main_v3 = U ReferenceIdeal.main_v3 := by
  after_results_simp <;> rfl
set_option maxHeartbeats 8000000 in
theorem keepE1_v6 (U : Valuation ReferenceIdeal.τ ReferenceIdeal.sig (Elt Ideal)) : after ReferenceIdeal.Line.opsE1 U ReferenceIdeal.main_v6 = U ReferenceIdeal.main_v6 := by
  after_results_simp <;> rfl
set_option maxHeartbeats 8000000 in
theorem keepE1_v19 (U : Valuation ReferenceIdeal.τ ReferenceIdeal.sig (Elt Ideal)) : after ReferenceIdeal.Line.opsE1 U ReferenceIdeal.main_v19 = U ReferenceIdeal.main_v19 := by
  after_results_simp <;> rfl
set_option maxHeartbeats 8000000 in
theorem keepD2_arg5 (U : Valuation ReferenceIdeal.τ ReferenceIdeal.sig (Elt Ideal)) : after ReferenceIdeal.Line.opsD2 U ReferenceIdeal.main_arg5 = U ReferenceIdeal.main_arg5 := by
  after_results_simp <;> rfl
set_option maxHeartbeats 8000000 in
theorem keepD2_v3 (U : Valuation ReferenceIdeal.τ ReferenceIdeal.sig (Elt Ideal)) : after ReferenceIdeal.Line.opsD2 U ReferenceIdeal.main_v3 = U ReferenceIdeal.main_v3 := by
  after_results_simp <;> rfl
set_option maxHeartbeats 8000000 in
theorem keepD2_v6 (U : Valuation ReferenceIdeal.τ ReferenceIdeal.sig (Elt Ideal)) : after ReferenceIdeal.Line.opsD2 U ReferenceIdeal.main_v6 = U ReferenceIdeal.main_v6 := by
  after_results_simp <;> rfl
set_option maxHeartbeats 8000000 in
theorem keepD2_v19 (U : Valuation ReferenceIdeal.τ ReferenceIdeal.sig (Elt Ideal)) : after ReferenceIdeal.Line.opsD2 U ReferenceIdeal.main_v19 = U ReferenceIdeal.main_v19 := by
  after_results_simp <;> rfl
set_option maxHeartbeats 8000000 in
theorem keepC_arg5 (U : Valuation ReferenceIdeal.τ ReferenceIdeal.sig (Elt Ideal)) : after ReferenceIdeal.Line.opsC U ReferenceIdeal.main_arg5 = U ReferenceIdeal.main_arg5 := by
  after_results_simp <;> rfl

set_option maxHeartbeats 8000000 in
theorem keepK0_arg0 (W : Valuation KernelIdeal.τ KernelIdeal.sig (Elt Ideal)) : after KernelIdeal.Gen.hostOps0_1 (after KernelIdeal.Gen.hostOps0 W) KernelIdeal.main_arg0 = W KernelIdeal.main_arg0 := by
  after_results_simp <;> rfl
set_option maxHeartbeats 8000000 in
theorem keepK0_arg1 (W : Valuation KernelIdeal.τ KernelIdeal.sig (Elt Ideal)) : after KernelIdeal.Gen.hostOps0_1 (after KernelIdeal.Gen.hostOps0 W) KernelIdeal.main_arg1 = W KernelIdeal.main_arg1 := by
  after_results_simp <;> rfl
set_option maxHeartbeats 8000000 in
theorem keepK0_arg2 (W : Valuation KernelIdeal.τ KernelIdeal.sig (Elt Ideal)) : after KernelIdeal.Gen.hostOps0_1 (after KernelIdeal.Gen.hostOps0 W) KernelIdeal.main_arg2 = W KernelIdeal.main_arg2 := by
  after_results_simp <;> rfl
set_option maxHeartbeats 8000000 in
theorem keepK0_arg3 (W : Valuation KernelIdeal.τ KernelIdeal.sig (Elt Ideal)) : after KernelIdeal.Gen.hostOps0_1 (after KernelIdeal.Gen.hostOps0 W) KernelIdeal.main_arg3 = W KernelIdeal.main_arg3 := by
  after_results_simp <;> rfl
set_option maxHeartbeats 8000000 in
theorem keepK0_arg4 (W : Valuation KernelIdeal.τ KernelIdeal.sig (Elt Ideal)) : after KernelIdeal.Gen.hostOps0_1 (after KernelIdeal.Gen.hostOps0 W) KernelIdeal.main_arg4 = W KernelIdeal.main_arg4 := by
  after_results_simp <;> rfl
set_option maxHeartbeats 8000000 in
theorem keepK0_arg5 (W : Valuation KernelIdeal.τ KernelIdeal.sig (Elt Ideal)) : after KernelIdeal.Gen.hostOps0_1 (after KernelIdeal.Gen.hostOps0 W) KernelIdeal.main_arg5 = W KernelIdeal.main_arg5 := by
  after_results_simp <;> rfl
set_option maxHeartbeats 8000000 in
theorem keepK1_arg4 (W : Valuation KernelIdeal.τ KernelIdeal.sig (Elt Ideal)) : after KernelIdeal.Gen.hostOps1 W KernelIdeal.main_arg4 = W KernelIdeal.main_arg4 := by
  after_results_simp <;> rfl
set_option maxHeartbeats 8000000 in
theorem keepK1_arg5 (W : Valuation KernelIdeal.τ KernelIdeal.sig (Elt Ideal)) : after KernelIdeal.Gen.hostOps1 W KernelIdeal.main_arg5 = W KernelIdeal.main_arg5 := by
  after_results_simp <;> rfl
set_option maxHeartbeats 8000000 in
theorem keepK1_v3 (W : Valuation KernelIdeal.τ KernelIdeal.sig (Elt Ideal)) : after KernelIdeal.Gen.hostOps1 W KernelIdeal.main_v3 = W KernelIdeal.main_v3 := by
  after_results_simp <;> rfl
set_option maxHeartbeats 8000000 in
theorem keepK1_v6 (W : Valuation KernelIdeal.τ KernelIdeal.sig (Elt Ideal)) : after KernelIdeal.Gen.hostOps1 W KernelIdeal.main_v6 = W KernelIdeal.main_v6 := by
  after_results_simp <;> rfl
set_option maxHeartbeats 8000000 in
theorem keepK1_v19 (W : Valuation KernelIdeal.τ KernelIdeal.sig (Elt Ideal)) : after KernelIdeal.Gen.hostOps1 W KernelIdeal.main_v19 = W KernelIdeal.main_v19 := by
  after_results_simp <;> rfl

end Cert.Bridge

end
-- ==== Proof.LibTypedRef.lean ====
/-
  Typed references and the transport of contents along their type equation.

  A function the tracer outlines (relu, clip, where, …) is printed once over typed references: a reference to a buffer
  together with the equation "this buffer's type is the value's type". Every operation of such a function reads its operands
  and writes its result through that equation: contents at the value's type are transported to contents of the buffer and
  back. For a literal reference the equation holds by computation and the transport is the identity, but a proof should not
  ask Lean to compute that on a full-size program: stated once over a VARIABLE typed reference, where the equation can be
  eliminated, the three facts below say that the transport changes nothing, and they apply to any literal reference by
  instantiation. With them a goal left by reading an outlined function's operations,
      y.toBuf (f (a.ofBuf A) (b.ofBuf (b.toBuf B))) = g,
  becomes `f A' B = g` by `eq_of_heq ((toBuf_heq _ _).trans (heq_of_eq ?_))`, `rw [ofBuf_toBuf]`, and
  `eq_of_heq ((ofBuf_heq _ _).trans (heq_of_eq hA))` for a known `hA : A = A'`.
-/
import Idealize.ShloMosaic.Lib.StableHlo

noncomputable section

namespace Cert.Lib.TypedRef

open Idealize.ShloMosaic Idealize.ShloMosaic.StableHlo

variable {sig : RefSig} {Val : EltTy → Type} {T : BufTy}

/-- Contents written through a typed reference are, up to the types' equation, the contents given. -/
theorem toBuf_heq (x : TRef sig T) (v : T.Contents Val) : HEq (x.toBuf v) v := by
  obtain ⟨r, h, h1, h2⟩ := x
  subst h
  rfl

/-- Contents read through a typed reference are, up to the types' equation, the buffer's contents. -/
theorem ofBuf_heq (x : TRef sig T) (v : x.ref.ty.Contents Val) : HEq (x.ofBuf v) v := by
  obtain ⟨r, h, h1, h2⟩ := x
  subst h
  rfl

/-- Reading back what was written through the same typed reference gives the contents written. -/
theorem ofBuf_toBuf (x : TRef sig T) (v : T.Contents Val) : x.ofBuf (x.toBuf v) = v :=
  eq_of_heq ((ofBuf_heq x _).trans (toBuf_heq x v))

/-- Writing what was read through the same typed reference gives the buffer's contents. -/
theorem toBuf_ofBuf (x : TRef sig T) (v : x.ref.ty.Contents Val) : x.toBuf (x.ofBuf v) = v :=
  eq_of_heq ((toBuf_heq x _).trans (ofBuf_heq x v))

end Cert.Lib.TypedRef

end
-- ==== Proof.HostChains.lean ====
/-
  The two programs share their host arithmetic on the graph: the edge lists with the self loops appended, the
  in-degree and its inverse square root, and for each layer the normalized aggregation over the edges
  (gather the source rows, scale by the two endpoints' normalizers, add into the destination rows).
  Piece by piece, from buffer contents that agree on what a piece reads, the reference's piece and the
  kernel program's stretch of host operations leave equal values in the buffers the next piece reads.
  The reference's four dense pieces — the two linear maps, the bias with the rectifier, the bias with the row-wise
  log-softmax — are the whole-array functions of Spec.lean of the buffers they read.
-/
import proofs.«103994_j41970420418160_1_alg».proof.Proof.Gen.KernelIdeal.Launch
import proofs.«103994_j41970420418160_1_alg».proof.Proof.RefRun
import proofs.«103994_j41970420418160_1_alg».proof.Proof.Spec
import proofs.«103994_j41970420418160_1_alg».proof.Proof.LibTypedRef

noncomputable section

namespace Cert.Bridge

open Idealize.ShloMosaic Idealize.ShloMosaic.TcCoe Idealize.SL.Sem Idealize.ShloMosaic.StableHlo
open Cert

/-- Buffer contents of the reference program, and of the kernel program, over the extended reals. -/
abbrev RV := Valuation ReferenceIdeal.τ ReferenceIdeal.sig (Elt Ideal)
abbrev KV := Valuation KernelIdeal.τ KernelIdeal.sig (Elt Ideal)

/-- Finishes an evaluation of a line of host operations where the one-pass form stops: inside the operand list of a
    concatenation the results are rewritten one at a time. -/
macro "results_inside" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The edge lists and the normalizers -/

set_option maxHeartbeats 8000000 in
theorem src_eq (U : RV) (W : KV) (h1 : U ReferenceIdeal.main_arg1 = W KernelIdeal.main_arg1) :
    after ReferenceIdeal.Line.opsA U ReferenceIdeal.main_v3 = after KernelIdeal.Gen.hostOps0_1 (after KernelIdeal.Gen.hostOps0 W) KernelIdeal.main_v3 := by
  after_results_simp
  results_inside
  rw [h1]; rfl

set_option maxHeartbeats 8000000 in
theorem dst_eq (U : RV) (W : KV) (h1 : U ReferenceIdeal.main_arg1 = W KernelIdeal.main_arg1) :
    after ReferenceIdeal.Line.opsA U ReferenceIdeal.main_v6 = after KernelIdeal.Gen.hostOps0_1 (after KernelIdeal.Gen.hostOps0 W) KernelIdeal.main_v6 := by
  after_results_simp
  results_inside
  rw [h1]; rfl

set_option maxHeartbeats 8000000 in
theorem dinv_eq (U : RV) (W : KV) (h1 : U ReferenceIdeal.main_arg1 = W KernelIdeal.main_arg1) :
    after ReferenceIdeal.Line.opsA U ReferenceIdeal.main_v19 = after KernelIdeal.Gen.hostOps0_1 (after KernelIdeal.Gen.hostOps0 W) KernelIdeal.main_v19 := by
  after_results_simp
  results_inside
  rw [h1]; rfl

/-! ## The normalized aggregation over the edges -/

set_option maxHeartbeats 8000000 in
theorem agg64_eq (U : RV) (W : KV) (h3 : U ReferenceIdeal.main_v3 = W KernelIdeal.main_v3) (h6 : U ReferenceIdeal.main_v6 = W KernelIdeal.main_v6)
    (h19 : U ReferenceIdeal.main_v19 = W KernelIdeal.main_v19) (h20 : U ReferenceIdeal.main_v20 = W KernelIdeal.main_v20) :
    after ReferenceIdeal.Line.opsB U ReferenceIdeal.main_v48 = after KernelIdeal.Gen.hostOps1 W KernelIdeal.main_v48 := by
  after_results_simp
  rw [h3, h6, h19, h20]; rfl

set_option maxHeartbeats 8000000 in
theorem agg16_eq (U : RV) (W : KV) (h3 : U ReferenceIdeal.main_v3 = W KernelIdeal.main_v3) (h6 : U ReferenceIdeal.main_v6 = W KernelIdeal.main_v6)
    (h19 : U ReferenceIdeal.main_v19 = W KernelIdeal.main_v19) (h53 : U ReferenceIdeal.main_v53 = W KernelIdeal.main_v51) :
    after ReferenceIdeal.Line.opsC U ReferenceIdeal.main_v81 = after KernelIdeal.Gen.hostOps3 W KernelIdeal.main_v79 := by
  after_results_simp
  rw [h3, h6, h19, h53]; rfl

/-! ## The kernel program's bias rows: a vector recast as a one-row matrix -/

set_option maxHeartbeats 8000000 in
theorem brow64 (W : KV) :
    after KernelIdeal.Gen.hostOps1 W KernelIdeal.main_v49 = shapeCast KernelIdeal.S1x64 (W KernelIdeal.main_arg3) KernelIdeal.Gen.shapeCasts_S64_S1x64 := by
  after_results_simp <;> rfl

set_option maxHeartbeats 8000000 in
theorem brow16 (W : KV) :
    after KernelIdeal.Gen.hostOps3 W KernelIdeal.main_v80 = shapeCast KernelIdeal.S1x16 (W KernelIdeal.main_arg5) KernelIdeal.Gen.shapeCasts_S16_S1x16 := by
  after_results_simp <;> rfl

/-! ## The reference's dense pieces -/

set_option maxHeartbeats 8000000 in
theorem refD1 (U : RV) :
    after ReferenceIdeal.Line.opsD1 U ReferenceIdeal.main_v20
      = Gcn.lin1 ReferenceIdeal.Gen.dot_S100000x128_S128x64_S100000x64_1_0_0_1_n_n_wf (U ReferenceIdeal.main_arg0) (U ReferenceIdeal.main_arg2) := by
  after_results_simp <;> rfl

set_option maxHeartbeats 8000000 in
theorem refE1 (U : RV) :
    after ReferenceIdeal.Line.opsE1 U ReferenceIdeal.main_v52
      = Gcn.biasRelu ReferenceIdeal.Gen.bcast_S1x64_S100000x64_0_1 ReferenceIdeal.Gen.bcast_S_S100000x64 (U ReferenceIdeal.main_v48)
          (broadcastInDim ReferenceIdeal.S1x64 ![1] ReferenceIdeal.Gen.bcast_S64_S1x64_1 (U ReferenceIdeal.main_arg3)) := by
  after_results_simp <;> rfl

set_option maxHeartbeats 8000000 in
theorem refD2 (U : RV) :
    after ReferenceIdeal.Line.opsD2 U ReferenceIdeal.main_v53
      = Gcn.lin2 ReferenceIdeal.Gen.dot_S100000x64_S64x16_S100000x16_1_0_0_1_n_n_wf (U ReferenceIdeal.main_v52) (U ReferenceIdeal.main_arg4) := by
  after_results_simp <;> rfl

set_option maxHeartbeats 8000000 in
set_option maxRecDepth 65536 in
theorem refE2 (U : RV) :
    after ReferenceIdeal.Line.opsE2 U ReferenceIdeal.main_v85
      = Gcn.biasLogSoftmax ReferenceIdeal.Gen.bcast_S1x16_S100000x16_0_1 ReferenceIdeal.Gen.reducesTo_S100000x16_S100000_d1 ReferenceIdeal.Gen.h_S_
          ReferenceIdeal.Gen.bcast_S_S100000 ReferenceIdeal.Gen.bcast_S100000_S100000x1_0 ReferenceIdeal.Gen.bcast_S100000x1_S100000x16_0_1 (U ReferenceIdeal.main_v81)
          (broadcastInDim ReferenceIdeal.S1x16 ![1] ReferenceIdeal.Gen.bcast_S16_S1x16_1 (U ReferenceIdeal.main_arg5)) := by
  after_results_simp
  unfold Gcn.biasLogSoftmax Gcn.logSoftmax Gcn.shifted Gcn.alongRows Gcn.rowMax Gcn.biased16
  simp only [Cert.Lib.TypedRef.ofBuf_toBuf]
  rfl

end Cert.Bridge

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.ArrLinear.lean ====
/-
  The two linear stages of the graph convolution, from row blocks to whole arrays.

  Each linear stage runs over twenty grid points; point `t` multiplies rows `5000 t … 5000 t + 4999` of the feature
  matrix by the whole weight matrix and writes the product to the same rows of the output. Entry `(p, q)` of the block
  product is the sum over the contracted coordinate `k` of `X (5000 t + p, k) * W (k, q)`, and entry `(r, q)` of the
  whole-array product is the sum over `k` of `X (r, k) * W (k, q)`: with `r = 5000 t + p` they are the same sum, term
  by term. Every row `r` of the output lies in the block of point `r / 5000`, so the twenty blocks fill the array, and
  the output array after the stage is the whole-array product.
-/
import proofs.«103994_j41970420418160_1_alg».proof.Proof.Gen.KernelIdeal.Frame
import proofs.«103994_j41970420418160_1_alg».proof.Proof.Spec
import proofs.«103994_j41970420418160_1_alg».proof.Proof.LibMatmulIx
import proofs.«103994_j41970420418160_1_alg».proof.Proof.LibHostDotIx
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Arr

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

namespace Lin

/-- The zero offset of a rank-2 rectangle, as a constant function. -/
theorem zero_off : (![0, 0] : Fin 2 → Nat) = fun _ => 0 := funext fun a => by fin_cases a <;> rfl

/-! ## The first linear stage: a 100000 x 128 matrix times a 128 x 64 matrix -/

/-- The block product at entry `(p, q)`: rounding to the narrower format changes nothing over the extended reals, so
    the entry is the sum over the contracted coordinate of the products of the entries. -/
theorem blockProd1_apply (x0 : Vec Ideal S5000x128 .f32) (x1 : Vec Ideal S128x64 .f32) (p : Fin 5000) (q : Fin 64) :
    Gen.k0_pay1 x0 x1 (ix2 p q) = ∑ k : Fin 128, x0 (ix2 p k) * x1 (ix2 k q) := by
  unfold Gen.k0_pay1
  exact Cert.LibMatmulIx.matmul_zero_apply _ none _ _ p q

/-- The whole-array product at entry `(r, q)`: the same sum over the contracted coordinate. -/
theorem lin1_apply (w : DotDims.WF S100000x128 S128x64 S100000x64 [1] [0] [0] [1] [] [])
    (X : FVec Ideal S100000x128 .f32) (W : FVec Ideal S128x64 .f32) (r : Fin 100000) (q : Fin 64) :
    Cert.Gcn.lin1 w X W (ix2 r q) = ∑ k : Fin 128, X (ix2 r k) * W (ix2 k q) := by
  unfold Cert.Gcn.lin1
  exact Cert.LibHostDotIx.dotGeneral_apply _ none _ _ r q

/-- Where each block sits, at every grid point `t`: the feature block and the output block are row block `t` (column
    block 0), the weight block is the whole weight matrix. -/
theorem blockIndex1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the feature block at point `t` is entry `(5000 t + p, k)` of the feature matrix. -/
theorem featBlock1_apply (c : Dev nD) (t : Fin cfg0.N) (p : Fin 5000) (k : Fin 128) (r : Fin 100000)
    (hr : r.val = 5000 * t.val + p.val) :
    (Gen.iblk0 V c 0 t : Vec Ideal S5000x128 .f32) (ix2 p k)
      = (V c main_arg0 : S100000x128.Idx → Ideal .f32) (ix2 r k) := by
  obtain ⟨e0, e1, -, -, -, -⟩ := blockIndex1 t
  unfold Gen.iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Entry `(k, q)` of the weight block at any point is entry `(k, q)` of the weight matrix. -/
theorem weightBlock1_apply (c : Dev nD) (t : Fin cfg0.N) (k : Fin 128) (q : Fin 64) :
    (Gen.iblk0 V c 1 t : Vec Ideal S128x64 .f32) (ix2 k q)
      = (V c main_arg2 : S128x64.Idx → Ideal .f32) (ix2 k q) := by
  obtain ⟨-, -, e2, e3, -, -⟩ := blockIndex1 t
  unfold Gen.iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What point `t` writes to the output is row block `t` of the whole-array product: entry `(p, q)` of the block
    product and entry `(5000 t + p, q)` of the whole-array product are the same sum over the contracted coordinate. -/
theorem written1_eq (c : Dev nD) (t : Fin cfg0.N) (w : DotDims.WF S100000x128 S128x64 S100000x64 [1] [0] [0] [1] [] []) :
    (Gen.dat0 (F := Ideal) V c).flushed 2 t
      = ((cfg0.win 2).blk t).view.read (Elt Ideal) (Cert.Gcn.lin1 w (V c main_arg0) (V c main_arg2)) := by
  show (cfg0.win 2).cut (grid0.coords t) ((Gen.dat0 V c).after 2 t) = _
  rw [Gen.after0_2]
  unfold Gen.out0_2
  rw [View.canon_unit_zero zero_off]
  simp only [View.ld_unit_zero (S := S5000x128) zero_off, View.ld_unit_zero (S := S128x64) zero_off]
  funext j
  obtain ⟨p, q, rfl⟩ : ∃ (p : Fin 5000) (q : Fin 64), j = ix2 p q := ⟨j 0, j 1, eq_ix2 j⟩
  have hr : 5000 * t.val + p.val < 100000 := by
    have ht : t.val < 20 := lt_of_lt_of_eq t.isLt Gen.N_0
    have := p.isLt; omega
  obtain ⟨-, -, -, -, e4, e5⟩ := blockIndex1 t
  have hemb : ((cfg0.win 2).blk t).view.emb (ix2 p q)
      = (ix2 (⟨5000 * t.val + p.val, hr⟩ : Fin 100000) q : S100000x64.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 64 + 1 * q.val = q.val; rw [e5]; omega
  rw [View.read_apply, hemb]
  refine (blockProd1_apply _ _ p q).trans ?_
  refine Eq.trans ?_ (lin1_apply w _ _ ⟨5000 * t.val + p.val, hr⟩ q).symm
  refine Finset.sum_congr rfl fun k _ => ?_
  rw [featBlock1_apply V c t p k ⟨5000 * t.val + p.val, hr⟩ rfl, weightBlock1_apply V c t k q]

/-- An index of the output array is in point `t`'s block iff each coordinate is in the block's range on its axis. -/
theorem mem_block1 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v20).slice (win0_2.rect t)).set ↔ _
  rw [View.set_slice_whole, Rect.mem_set_unit]
  exact Iff.rfl

/-- Every index of the output array is in some point's block: row `r` is in the block of point `r / 5000`. -/
theorem cover1 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) Gen.N_0.symm⟩, rfl⟩
  obtain ⟨-, -, -, -, e4, e5⟩ := blockIndex1 t
  refine ⟨t, Gen.flush0_2 t, ?_⟩
  rw [mem_block1]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-! ## The second linear stage: a 100000 x 64 matrix times a 64 x 16 matrix -/

/-- The block product at entry `(p, q)`: the reshape to the same shape and the rounding to the narrower format change
    nothing over the extended reals, so the entry is the sum over the contracted coordinate of the products of the
    entries. -/
theorem blockProd2_apply (x0 : Vec Ideal S5000x64 .f32) (x1 : Vec Ideal S64x16 .f32) (p : Fin 5000) (q : Fin 16) :
    Gen.k2_pay1 x0 x1 (ix2 p q) = ∑ k : Fin 64, x0 (ix2 p k) * x1 (ix2 k q) := by
  unfold Gen.k2_pay1
  simp only [shapeCast_self]
  exact Cert.LibMatmulIx.matmul_zero_apply _ none _ _ p q

/-- The whole-array product at entry `(r, q)`: the same sum over the contracted coordinate. -/
theorem lin2_apply (w : DotDims.WF S100000x64 S64x16 S100000x16 [1] [0] [0] [1] [] [])
    (X : FVec Ideal S100000x64 .f32) (W : FVec Ideal S64x16 .f32) (r : Fin 100000) (q : Fin 16) :
    Cert.Gcn.lin2 w X W (ix2 r q) = ∑ k : Fin 64, X (ix2 r k) * W (ix2 k q) := by
  unfold Cert.Gcn.lin2
  exact Cert.LibHostDotIx.dotGeneral_apply _ none _ _ r q

/-- Where each block sits, at every grid point `t`: the feature block and the output block are row block `t` (column
    block 0), the weight block is the whole weight matrix. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of the feature block at point `t` is entry `(5000 t + p, k)` of the feature matrix. -/
theorem featBlock2_apply (c : Dev nD) (t : Fin cfg2.N) (p : Fin 5000) (k : Fin 64) (r : Fin 100000)
    (hr : r.val = 5000 * t.val + p.val) :
    (Gen.iblk2 V c 0 t : Vec Ideal S5000x64 .f32) (ix2 p k)
      = (V c main_v50 : S100000x64.Idx → Ideal .f32) (ix2 r k) := by
  obtain ⟨e0, e1, -, -, -, -⟩ := blockIndex2 t
  unfold Gen.iblk2
  rw [View.read_apply]
  show V c main_v50 _ = V c main_v50 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Entry `(k, q)` of the weight block at any point is entry `(k, q)` of the weight matrix. -/
theorem weightBlock2_apply (c : Dev nD) (t : Fin cfg2.N) (k : Fin 64) (q : Fin 16) :
    (Gen.iblk2 V c 1 t : Vec Ideal S64x16 .f32) (ix2 k q)
      = (V c main_arg4 : S64x16.Idx → Ideal .f32) (ix2 k q) := by
  obtain ⟨-, -, e2, e3, -, -⟩ := blockIndex2 t
  unfold Gen.iblk2
  rw [View.read_apply]
  show V c main_arg4 _ = V c main_arg4 _
  congr 1
  funext a
  apply Fin.ext
  match a with
  | ⟨0, _⟩ => show win2_1.index t (0 : Fin 2) * 64 + 1 * k.val = k.val; rw [e2]; omega
  | ⟨1, _⟩ => show win2_1.index t (1 : Fin 2) * 16 + 1 * q.val = q.val; rw [e3]; omega

/-- What point `t` writes to the output is row block `t` of the whole-array product: entry `(p, q)` of the block
    product and entry `(5000 t + p, q)` of the whole-array product are the same sum over the contracted coordinate. -/
theorem written2_eq (c : Dev nD) (t : Fin cfg2.N) (w : DotDims.WF S100000x64 S64x16 S100000x16 [1] [0] [0] [1] [] []) :
    (Gen.dat2 (F := Ideal) V c).flushed 2 t
      = ((cfg2.win 2).blk t).view.read (Elt Ideal) (Cert.Gcn.lin2 w (V c main_v50) (V c main_arg4)) := by
  show (cfg2.win 2).cut (grid2.coords t) ((Gen.dat2 V c).after 2 t) = _
  rw [Gen.after2_2]
  unfold Gen.out2_2
  rw [View.canon_unit_zero zero_off]
  simp only [View.ld_unit_zero (S := S5000x64) zero_off, View.ld_unit_zero (S := S64x16) zero_off]
  funext j
  obtain ⟨p, q, rfl⟩ : ∃ (p : Fin 5000) (q : Fin 16), j = ix2 p q := ⟨j 0, j 1, eq_ix2 j⟩
  have hr : 5000 * t.val + p.val < 100000 := by
    have ht : t.val < 20 := lt_of_lt_of_eq t.isLt Gen.N_2
    have := p.isLt; omega
  obtain ⟨-, -, -, -, e4, e5⟩ := blockIndex2 t
  have hemb : ((cfg2.win 2).blk t).view.emb (ix2 p q)
      = (ix2 (⟨5000 * t.val + p.val, hr⟩ : Fin 100000) q : S100000x16.Idx) := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 16 + 1 * q.val = q.val; rw [e5]; omega
  rw [View.read_apply, hemb]
  refine (blockProd2_apply _ _ p q).trans ?_
  refine Eq.trans ?_ (lin2_apply w _ _ ⟨5000 * t.val + p.val, hr⟩ q).symm
  refine Finset.sum_congr rfl fun k _ => ?_
  rw [featBlock2_apply V c t p k ⟨5000 * t.val + p.val, hr⟩ rfl, weightBlock2_apply V c t k q]

/-- An index of the output array is in point `t`'s block iff each coordinate is in the block's range on its axis. -/
theorem mem_block2 (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v51).slice (win2_2.rect t)).set ↔ _
  rw [View.set_slice_whole, Rect.mem_set_unit]
  exact Iff.rfl

/-- Every index of the output array is in some point's block: row `r` is in the block of point `r / 5000`. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ : ∃ t : Fin cfg2.N, t.val = (i 0).val / 5000 :=
    ⟨⟨(i 0).val / 5000, lt_of_lt_of_eq (by omega : (i 0).val / 5000 < 20) Gen.N_2.symm⟩, rfl⟩
  obtain ⟨-, -, -, -, e4, e5⟩ := blockIndex2 t
  refine ⟨t, Gen.flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 16 ≤ (i 1).val ∧ (i 1).val < win2_2.index t (1 : Fin 2) * 16 + 16
    rw [e5]; omega

end Lin

/-! ## The two output arrays -/

/-- The output array after the first linear stage is the whole-array product of the feature matrix and the weight
    matrix as the stage finds them. -/
theorem arr0 (c : Dev nD) (w : DotDims.WF S100000x128 S128x64 S100000x64 [1] [0] [0] [1] [] []) :
    (Gen.dat0 (F := Ideal) V c).arrAt 2 cfg0.N = Cert.Gcn.lin1 w (V c main_arg0) (V c main_arg2) :=
  (Gen.dat0 V c).arrAt_eq_of_cover 2 (Cert.Gcn.lin1 w (V c main_arg0) (V c main_arg2))
    (fun t _ => Lin.written1_eq V c t w) Lin.cover1

/-- The output array after the second linear stage is the whole-array product of the feature matrix and the weight
    matrix as the stage finds them. -/
theorem arr2 (c : Dev nD) (w : DotDims.WF S100000x64 S64x16 S100000x16 [1] [0] [0] [1] [] []) :
    (Gen.dat2 (F := Ideal) V c).arrAt 2 cfg2.N = Cert.Gcn.lin2 w (V c main_v50) (V c main_arg4) :=
  (Gen.dat2 V c).arrAt_eq_of_cover 2 (Cert.Gcn.lin2 w (V c main_v50) (V c main_arg4))
    (fun t _ => Lin.written2_eq V c t w) Lin.cover2

end Cert.KernelIdeal.Arr

end
-- ==== Proof.LibHostRows.lean ====
/-
  Host operations of a small dense network read at one index, over the extended reals.

  The general dot product contracting the last axis of a matrix with the last axis of a second matrix, or of a
  rank-3 array, is at each result index the sum over the contracted coordinate of the products of the two entries.
  The host's sum and maximum over the columns of a matrix are the finite sum and the fold of the maximum over the
  column coordinate. A broadcast reads the operand at the coordinates it keeps. A slice of one leading block
  followed by the cast that forgets the unit axis reads the array at that block.
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.RefOps

open Idealize.ShloMosaic Idealize.ShloMosaic.ValueIdx

/-! ## Dot products contracting the last axes -/

/-- An M × K matrix against an N × K matrix, contracting both second axes: entry (a, b) is the sum over c of
    A (a, c) * B (b, c). -/
theorem dotGeneral_rows_apply {M K N : ℕ} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (F := Ideal) (⟨[1], [1], [0], [0], [], [], w⟩ : DotDims _ _ _) prec A B (ix2 a b)
      = ∑ c : Fin K, A (ix2 a c) * B (ix2 b c) := by
  simp only [Host.dotGeneral]
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- An M × K matrix against an N × J × K array, contracting the matrix's second axis with the array's last:
    entry (a, e, r) is the sum over c of A (a, c) * B (e, r, c). -/
theorem dotGeneral_rows3_apply {M K N J : ℕ} {φ₁ φ₂ : FTy}
    (w : DotDims.WF ⟨2, ![M, K]⟩ ⟨3, ![N, J, K]⟩ ⟨3, ![M, N, J]⟩ [1] [2] [0] [0, 1] [] [])
    (prec : Option ContractPrecision) (A : FVec Ideal ⟨2, ![M, K]⟩ φ₁) (B : FVec Ideal ⟨3, ![N, J, K]⟩ φ₂)
    (a : Fin M) (e : Fin N) (r : Fin J) :
    Host.dotGeneral (F := Ideal) (⟨[1], [2], [0], [0, 1], [], [], w⟩ : DotDims _ _ _) prec A B (ix3 a e r)
      = ∑ c : Fin K, A (ix2 a c) * B (ix3 e r c) := by
  simp only [Host.dotGeneral]
  rw [Ideal.dotGeneral_apply,
    ← Equiv.sum_comp (contrEquiv1 (⟨[1], [2], [0], [0, 1], [], [], w⟩ : DotDims _ _ _) K rfl rfl).symm]
  refine Finset.sum_congr rfl fun c _ => ?_
  have c2 := contrEquiv1_symm_val
    (⟨[1], [2], [0], [0, 1], [], [], w⟩ : DotDims ⟨2, ![M, K]⟩ ⟨3, ![N, J, K]⟩ ⟨3, ![M, N, J]⟩) K rfl rfl c
  have l2 : (⟨[1], [2], [0], [0, 1], [], [], w⟩ : DotDims ⟨2, ![M, K]⟩ ⟨3, ![N, J, K]⟩ ⟨3, ![M, N, J]⟩).lhsIdx (ix3 a e r)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [2], [0], [0, 1], [], [], w⟩ : DotDims ⟨2, ![M, K]⟩ ⟨3, ![N, J, K]⟩ ⟨3, ![M, N, J]⟩).rhsIdx (ix3 a e r)
      ((contrEquiv1 _ K rfl rfl).symm c) = ix3 e r c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-! ## Reductions over the columns of a matrix -/

/-- The reduced index a of [N] with k inserted on the dropped second axis is (a, k). -/
theorem lift_cols {N K : Nat} (h : (⟨2, ![N, K]⟩ : Shape).Reduces [1] ⟨1, ![N]⟩) (a : Fin N) (k : Fin K) :
    h.lift (ix1 a) k = ix2 a k := by
  funext b; refine Fin.ext ?_
  match b with
  | ⟨0, _⟩ => rfl
  | ⟨1, _⟩ => rfl

/-- The host's sum over the columns of [N, K] from the initial value 0, read at row a: the sum over k of the
    matrix at (a, k). -/
theorem hostReduceAdd_cols_apply {N K : Nat} {u : Shape} (x : FVec Ideal ⟨2, ![N, K]⟩ .f32)
    (h' : (⟨2, ![N, K]⟩ : Shape).ReducesTo [1] ⟨1, ![N]⟩) (hu : 0 < u.numel) (a : Fin N) :
    Host.reduceAdd (F := Ideal) x (constant (F := Ideal) u .f32 0x00000000#32) h' hu (ix1 a)
      = ∑ k : Fin K, x (ix2 a k) := by
  have h : (⟨2, ![N, K]⟩ : Shape).Reduces [1] ⟨1, ![N]⟩ := ⟨h'.1, Nat.zero_lt_one, h'.2⟩
  show Ideal.hostReduceAdd h' x (Ideal.ofBits .f32 0x00000000#32) (ix1 a) = _
  rw [Ideal.hostReduceAdd_single h' h x _ (ix1 a), Ideal.ofBits_zero_f32, zero_add]
  exact Finset.sum_congr rfl fun k _ => congrArg x (lift_cols h a k)

/-- The host's maximum over the columns of [N, K] from a constant initial value, read at row a: the fold of the
    maximum from that value over k of the matrix at (a, k). -/
theorem hostReduce_max_cols_apply {N K : Nat} {u : Shape} (x : FVec Ideal ⟨2, ![N, K]⟩ .f32) (bits : BitVec 32)
    (h' : (⟨2, ![N, K]⟩ : Shape).ReducesTo [1] ⟨1, ![N]⟩) (hu : 0 < u.numel) (a : Fin N) :
    Host.reduce FloatOps.maximumf x (constant (F := Ideal) u .f32 bits) h' hu (ix1 a)
      = (Finset.univ : Finset (Fin K)).fold max (Ideal.ofBits .f32 bits) (fun k => x (ix2 a k)) := by
  have h : (⟨2, ![N, K]⟩ : Shape).Reduces [1] ⟨1, ![N]⟩ := ⟨h'.1, Nat.zero_lt_one, h'.2⟩
  rw [Host.reduce_eq_fold_single FloatOps.maximumf x _ h' h hu]
  exact congrArg ((Finset.univ : Finset (Fin K)).fold max (Ideal.ofBits .f32 bits))
    (funext fun k => congrArg x (lift_cols h a k))

/-! ## Broadcasts -/

section Broadcast
variable {α : Type}

/-- A column [R, 1] broadcast along both axes of [R, C], read at (p, c): the column's entry of row p. -/
theorem broadcastInDim_col_mat_apply {R C : Nat} (x : (⟨2, ![R, 1]⟩ : Shape).Idx → α)
    (h : (⟨2, ![R, 1]⟩ : Shape).BroadcastsInDim ⟨2, ![R, C]⟩ ![0, 1]) (p : Fin R) (c : Fin C) :
    broadcastInDim ⟨2, ![R, C]⟩ ![0, 1] h x (ix2 p c) = x (ix2 p 0) :=
  broadcastInDim_apply _ h x (ix2 p c) (ix2 p 0) (fun a => match a with
    | ⟨0, _⟩ => by
      show p.val = if R = 1 then 0 else p.val
      have := p.isLt
      split <;> omega
    | ⟨1, _⟩ => rfl)

/-- A vector [R] broadcast along axis 0 of [R, 1], read at (e, z): the vector at e. -/
theorem broadcastInDim_vec_col_apply {R : Nat} (x : (⟨1, ![R]⟩ : Shape).Idx → α)
    (h : (⟨1, ![R]⟩ : Shape).BroadcastsInDim ⟨2, ![R, 1]⟩ ![0]) (e : Fin R) (z : Fin 1) :
    broadcastInDim ⟨2, ![R, 1]⟩ ![0] h x (ix2 e z) = x (ix1 e) :=
  broadcastInDim_apply _ h x (ix2 e z) (ix1 e) (fun a => match a with
    | ⟨0, _⟩ => by
      show e.val = if R = 1 then 0 else e.val
      have := e.isLt
      split <;> omega)

/-- A vector [C] broadcast along axis 1 of [1, C], read at (z, c): the vector at c. -/
theorem broadcastInDim_vec_row_apply {C : Nat} (x : (⟨1, ![C]⟩ : Shape).Idx → α)
    (h : (⟨1, ![C]⟩ : Shape).BroadcastsInDim ⟨2, ![1, C]⟩ ![1]) (z : Fin 1) (c : Fin C) :
    broadcastInDim ⟨2, ![1, C]⟩ ![1] h x (ix2 z c) = x (ix1 c) :=
  broadcastInDim_apply _ h x (ix2 z c) (ix1 c) (fun a => match a with
    | ⟨0, _⟩ => by
      show c.val = if C = 1 then 0 else c.val
      have := c.isLt
      split <;> omega)

/-- A row [1, C] broadcast along both axes of [R, C], read at (p, c): the row's entry of column c. -/
theorem broadcastInDim_row_mat_apply {R C : Nat} (x : (⟨2, ![1, C]⟩ : Shape).Idx → α)
    (h : (⟨2, ![1, C]⟩ : Shape).BroadcastsInDim ⟨2, ![R, C]⟩ ![0, 1]) (p : Fin R) (c : Fin C) :
    broadcastInDim ⟨2, ![R, C]⟩ ![0, 1] h x (ix2 p c) = x (ix2 0 c) :=
  broadcastInDim_apply _ h x (ix2 p c) (ix2 0 c) (fun a => match a with
    | ⟨0, _⟩ => rfl
    | ⟨1, _⟩ => by
      show c.val = if C = 1 then 0 else c.val
      have := c.isLt
      split <;> omega)

/-- A scalar broadcast to a vector reads the scalar everywhere. -/
theorem broadcastInDim_scalar_apply {R : Nat} (x : (⟨0, ![]⟩ : Shape).Idx → α)
    (h : (⟨0, ![]⟩ : Shape).BroadcastsInDim ⟨1, ![R]⟩ ![]) (k : (⟨0, ![]⟩ : Shape).Idx) (e : Fin R) :
    broadcastInDim ⟨1, ![R]⟩ ![] h x (ix1 e) = x k :=
  broadcastInDim_apply _ h x (ix1 e) k (fun a => a.elim0)

end Broadcast

/-! ## One leading block of an array, its unit axis forgotten -/

section Block
variable {α : Type}

/-- Block l of a [L, A] matrix, as a vector: entry e is the matrix at (l, e). -/
theorem block2_apply {L A : Nat} (o : Nat) (l : Fin L) (ho : l.val = o) (x : (⟨2, ![L, A]⟩ : Shape).Idx → α)
    (h : (⟨2, ![L, A]⟩ : Shape).Slices ![o, 0] ⟨2, ![1, A]⟩)
    (hc : (⟨2, ![1, A]⟩ : Shape).ShapeCasts ⟨1, ![A]⟩) (e : Fin A) :
    shapeCast ⟨1, ![A]⟩ (extractStridedSlice ⟨2, ![1, A]⟩ ![o, 0] x h) hc (ix1 e) = x (ix2 l e) := by
  refine (shapeCast_apply _ hc (ix1 e) (ix2 0 e) ?_).trans ?_
  · rw [Shape.rowMajor_val_one, Shape.rowMajor_val_two]
    show 0 * A + e.val = e.val
    rw [Nat.zero_mul, Nat.zero_add]
  · exact extractStridedSlice_apply _ x h (ix2 0 e) (ix2 l e) (fun a => match a with
      | ⟨0, _⟩ => by show l.val = o + 0; omega
      | ⟨1, _⟩ => by show e.val = 0 + e.val; omega)

/-- Block l of a [L, A, B] array, as a matrix: entry (e, d) is the array at (l, e, d). -/
theorem block3_apply {L A B : Nat} (o : Nat) (l : Fin L) (ho : l.val = o) (x : (⟨3, ![L, A, B]⟩ : Shape).Idx → α)
    (h : (⟨3, ![L, A, B]⟩ : Shape).Slices ![o, 0, 0] ⟨3, ![1, A, B]⟩)
    (hc : (⟨3, ![1, A, B]⟩ : Shape).ShapeCasts ⟨2, ![A, B]⟩) (e : Fin A) (d : Fin B) :
    shapeCast ⟨2, ![A, B]⟩ (extractStridedSlice ⟨3, ![1, A, B]⟩ ![o, 0, 0] x h) hc (ix2 e d) = x (ix3 l e d) := by
  refine (shapeCast_apply _ hc (ix2 e d) (ix3 0 e d) ?_).trans ?_
  · rw [Shape.rowMajor_val_two, Shape.rowMajor_val_three]
    show (0 * A + e.val) * B + d.val = e.val * B + d.val
    rw [Nat.zero_mul, Nat.zero_add]
  · exact extractStridedSlice_apply _ x h (ix3 0 e d) (ix3 l e d) (fun a => match a with
      | ⟨0, _⟩ => by show l.val = o + 0; omega
      | ⟨1, _⟩ => by show e.val = 0 + e.val; omega
      | ⟨2, _⟩ => by show d.val = 0 + d.val; omega)

/-- Block l of a [L, A, B, C] array, as a rank-3 array: entry (e, r, d) is the array at (l, e, r, d). -/
theorem block4_apply {L A B C : Nat} (o : Nat) (l : Fin L) (ho : l.val = o)
    (x : (⟨4, ![L, A, B, C]⟩ : Shape).Idx → α)
    (h : (⟨4, ![L, A, B, C]⟩ : Shape).Slices ![o, 0, 0, 0] ⟨4, ![1, A, B, C]⟩)
    (hc : (⟨4, ![1, A, B, C]⟩ : Shape).ShapeCasts ⟨3, ![A, B, C]⟩) (e : Fin A) (r : Fin B) (d : Fin C) :
    shapeCast ⟨3, ![A, B, C]⟩ (extractStridedSlice ⟨4, ![1, A, B, C]⟩ ![o, 0, 0, 0] x h) hc (ix3 e r d)
      = x (ix4 l e r d) := by
  refine (shapeCast_apply _ hc (ix3 e r d) (ix4 0 e r d) ?_).trans ?_
  · rw [Shape.rowMajor_val_three, Shape.rowMajor_val_four]
    show ((0 * A + e.val) * B + r.val) * C + d.val = (e.val * B + r.val) * C + d.val
    rw [Nat.zero_mul, Nat.zero_add]
  · exact extractStridedSlice_apply _ x h (ix4 0 e r d) (ix4 l e r d) (fun a => match a with
      | ⟨0, _⟩ => by show l.val = o + 0; omega
      | ⟨1, _⟩ => by show e.val = 0 + e.val; omega
      | ⟨2, _⟩ => by show r.val = 0 + r.val; omega
      | ⟨3, _⟩ => by show d.val = 0 + d.val; omega)

end Block

end Cert.RefOps

end
-- ==== Proof.ArrBiasRelu.lean ====
/-
  The rectifier stage of the two-layer graph convolution, as one function of whole arrays.

  Each of the twenty grid points adds the one row of 64 biases to every row of its block of 5000 rows and takes
  the maximum with zero; the twenty blocks tile the 100000 rows. So the array the stage leaves is, entry by
  entry, max (agg (r, q) + brow (0, q)) 0 over the extended reals: the whole-array function `Cert.Gcn.biasRelu`
  of the two arrays the stage finds.
-/
import proofs.«103994_j41970420418160_1_alg».proof.Proof.Gen.KernelIdeal.Frame
import proofs.«103994_j41970420418160_1_alg».proof.Proof.Spec
import proofs.«103994_j41970420418160_1_alg».proof.Proof.LibHostRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Arr

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

namespace Relu

/-- The zero offsets of a whole-block access, as a constant function. -/
theorem zero2 : (![0, 0] : Fin 2 → Nat) = fun _ => 0 := funext fun a => by fin_cases a <;> rfl

/-- One block's result at row p, column q: the block's entry plus the bias of column q, or zero if that is larger. -/
theorem biasRelu_block_apply (x : Vec Ideal S5000x64 .f32) (b : Vec Ideal S1x64 .f32) (p : Fin 5000) (q : Fin 64) :
    Gen.k1_pay1 x b (ix2 p q) = max (x (ix2 p q) + b (ix2 (0 : Fin 1) q)) (Ideal.ofBits .f32 0x00000000#32) := by
  unfold Gen.k1_pay1
  simp only [shapeCast_self]
  rw [maximumf_apply, addf_apply, broadcast_apply, broadcastTo_1b_ab_apply]
  rfl

/-- The whole-array function at row r, column q: the same expression of the two whole arrays. -/
theorem biasRelu_apply (hb : S1x64.BroadcastsInDim S100000x64 (![0, 1] : Fin 2 → Fin S100000x64.rank))
    (hz : S_.BroadcastsInDim S100000x64 (![] : Fin 0 → Fin S100000x64.rank))
    (agg : FVec Ideal S100000x64 .f32) (brow : FVec Ideal S1x64 .f32) (r : Fin 100000) (q : Fin 64) :
    Cert.Gcn.biasRelu hb hz agg brow (ix2 r q)
      = max (agg (ix2 r q) + brow (ix2 (0 : Fin 1) q)) (Ideal.ofBits .f32 0x00000000#32) := by
  unfold Cert.Gcn.biasRelu
  rw [maximumf_apply, addf_apply, Cert.RefOps.broadcastInDim_row_mat_apply,
    broadcastInDim_apply _ hz _ (ix2 r q) ix0 (fun a => a.elim0), constant_apply]

/-- The block index maps over the twenty grid points: point t takes row block t of the input and of the output,
    column block 0, and the one block of the bias row. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t's input block at (p, q) is the input array at row 5000 t + p, column q. -/
theorem rows_block_apply (c : Dev nD) (t : Fin cfg1.N) (p : Fin 5000) (q : Fin 64) (r : Fin 100000)
    (hr : r.val = 5000 * t.val + p.val) :
    (Gen.iblk1 V c 0 t : Vec Ideal S5000x64 .f32) (ix2 p q) = (V c main_v48 : S100000x64.Idx → Elt Ideal .f32) (ix2 r q) := by
  obtain ⟨e0, e1, -, -, -, -⟩ := block_indices t
  unfold Gen.iblk1
  rw [View.read_apply]
  show V c main_v48 _ = V c main_v48 _
  congr 1
  funext a
  apply Fin.ext
  match a with
  | ⟨0, _⟩ => show win1_0.index t 0 * 5000 + 1 * p.val = r.val; rw [e0, hr]; omega
  | ⟨1, _⟩ => show win1_0.index t 1 * 64 + 1 * q.val = q.val; rw [e1]; omega

/-- Point t's bias block at (0, q) is the bias row at (0, q). -/
theorem bias_block_apply (c : Dev nD) (t : Fin cfg1.N) (q : Fin 64) :
    (Gen.iblk1 V c 1 t : Vec Ideal S1x64 .f32) (ix2 (0 : Fin 1) q) = (V c main_v49 : S1x64.Idx → Elt Ideal .f32) (ix2 (0 : Fin 1) q) := by
  obtain ⟨-, -, e2, e3, -, -⟩ := block_indices t
  unfold Gen.iblk1
  rw [View.read_apply]
  show V c main_v49 _ = V c main_v49 _
  congr 1
  funext a
  apply Fin.ext
  match a with
  | ⟨0, _⟩ => show win1_1.index t 0 * 1 + 1 * 0 = 0; rw [e2]
  | ⟨1, _⟩ => show win1_1.index t 1 * 64 + 1 * q.val = q.val; rw [e3]; omega

/-- Point t's output block sits at rows 5000 t … 5000 t + 4999 of the output array. -/
theorem out_block_emb (t : Fin cfg1.N) (p : Fin 5000) (q : Fin 64) (r : Fin 100000)
    (hr : r.val = 5000 * t.val + p.val) :
    ((cfg1.win 2).blk t).view.emb (ix2 p q : S5000x64.Idx) = (ix2 r q : S100000x64.Idx) := by
  obtain ⟨-, -, -, -, e4, e5⟩ := block_indices t
  funext a
  apply Fin.ext
  match a with
  | ⟨0, _⟩ => show win1_2.index t 0 * 5000 + 1 * p.val = r.val; rw [e4, hr]; omega
  | ⟨1, _⟩ => show win1_2.index t 1 * 64 + 1 * q.val = q.val; rw [e5]; omega

/-- What point t writes back is block t of the whole-array function of the two arrays the stage finds. -/
theorem flushed_eq (c : Dev nD) (hb : S1x64.BroadcastsInDim S100000x64 (![0, 1] : Fin 2 → Fin S100000x64.rank))
    (hz : S_.BroadcastsInDim S100000x64 (![] : Fin 0 → Fin S100000x64.rank)) (t : Fin cfg1.N) :
    (Gen.dat1 (F := Ideal) V c).flushed 2 t
      = ((cfg1.win 2).blk t).view.read (Elt Ideal) (Cert.Gcn.biasRelu hb hz (V c main_v48) (V c main_v49)) := by
  show (cfg1.win 2).cut (grid1.coords t) ((Gen.dat1 V c).after 2 t) = _
  rw [Gen.after1_2]
  unfold Gen.out1_2
  rw [View.canon_unit_zero zero2]
  simp only [View.ld_unit_zero (S := S5000x64) zero2, View.ld_unit_zero (S := S1x64) zero2]
  funext j
  obtain ⟨p, q, rfl⟩ : ∃ (p : Fin 5000) (q : Fin 64), j = ix2 p q := ⟨j 0, j 1, eq_ix2 j⟩
  have ht : t.val < 20 := by have h := t.isLt; have hN : cfg1.N = 20 := Gen.N_1; omega
  have hlt : 5000 * t.val + p.val < 100000 := by have := p.isLt; omega
  show Gen.k1_pay1 (Gen.iblk1 V c 0 t) (Gen.iblk1 V c 1 t) (ix2 p q)
    = Cert.Gcn.biasRelu hb hz (V c main_v48) (V c main_v49) (((cfg1.win 2).blk t).view.emb (ix2 p q : S5000x64.Idx))
  rw [out_block_emb t p q ⟨5000 * t.val + p.val, hlt⟩ rfl]
  refine (biasRelu_block_apply (Gen.iblk1 V c 0 t) (Gen.iblk1 V c 1 t) p q).trans ?_
  refine Eq.trans ?_ (biasRelu_apply hb hz (V c main_v48) (V c main_v49) ⟨5000 * t.val + p.val, hlt⟩ q).symm
  rw [rows_block_apply V c t p q ⟨5000 * t.val + p.val, hlt⟩ rfl, bias_block_apply V c t q]

/-- An index of the output array is in point t's block iff each coordinate is in the block's range on its axis. -/
theorem mem_out_block (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v50).slice (win1_2.rect t)).set ↔ _
  rw [View.set_slice_whole, Rect.mem_set_unit]
  exact Iff.rfl

/-- Every index of the output array is in the block of the point that handles its row: row r belongs to point r / 5000. -/
theorem out_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := Gen.N_1
  let t : Fin cfg1.N := ⟨(i 0).val / 5000, by rw [hN]; omega⟩
  have htv : t.val = (i 0).val / 5000 := rfl
  obtain ⟨-, -, -, -, e4, e5⟩ := block_indices t
  refine ⟨t, Gen.flush1_2 t, ?_⟩
  rw [mem_out_block]
  intro a
  match a with
  | ⟨0, _⟩ =>
    show win1_2.index t (0 : Fin 2) * 5000 ≤ (i 0).val ∧ (i 0).val < win1_2.index t (0 : Fin 2) * 5000 + 5000
    rw [e4, htv]; omega
  | ⟨1, _⟩ =>
    show win1_2.index t (1 : Fin 2) * 64 ≤ (i 1).val ∧ (i 1).val < win1_2.index t (1 : Fin 2) * 64 + 64
    rw [e5]; omega

end Relu

/-- The array the rectifier stage leaves is the whole-array function of the two arrays it finds: the twenty row
    blocks tile the array, and each is written with its block of that function. -/
theorem arr1 (c : Dev nD) (hb : S1x64.BroadcastsInDim S100000x64 (![0, 1] : Fin 2 → Fin S100000x64.rank))
    (hz : S_.BroadcastsInDim S100000x64 (![] : Fin 0 → Fin S100000x64.rank)) :
    (Gen.dat1 (F := Ideal) V c).arrAt 2 cfg1.N = Cert.Gcn.biasRelu hb hz (V c main_v48) (V c main_v49) :=
  (Gen.dat1 (F := Ideal) V c).arrAt_eq_of_cover 2 (Cert.Gcn.biasRelu hb hz (V c main_v48) (V c main_v49))
    (fun t _ => Relu.flushed_eq V c hb hz t) Relu.out_cover

end Cert.KernelIdeal.Arr

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.ArrLogSoftmax.lean ====
/-
  Region 3 of the two-layer graph convolution: the bias followed by the row-wise log-softmax, from blocks to the array.

  Per grid point the body reads a block of 5000 rows of sixteen entries and the one bias row, adds the bias to every row,
  takes each row's maximum (never below minus infinity), subtracts it, exponentiates, sums each row, takes the logarithm
  and subtracts it. Entry (p, q) of the result is therefore a function of row p of the biased block alone: the log-softmax
  of that row at q. The whole-array function of the specification is the same function of row r of the biased array at
  (r, q): on both sides the row maximum is one fold of max from minus infinity over the sixteen entries and the row sum
  one finite sum, and the exponential and the logarithm of a kernel and of the host are the same functions of an extended
  real. Row p of point t's block is row 5000 t + p of the array, so what point t writes back is block t of the
  whole-array function; the twenty blocks cover the array, which therefore ends holding that function.
-/
import proofs.«103994_j41970420418160_1_alg».proof.Proof.Gen.KernelIdeal.Frame
import proofs.«103994_j41970420418160_1_alg».proof.Proof.Spec
import proofs.«103994_j41970420418160_1_alg».proof.Proof.LibKeepdims
import proofs.«103994_j41970420418160_1_alg».proof.Proof.LibHostRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Arr.Lsm

open Cert.KernelIdeal Cert.KernelIdeal.Gen Idealize.ShloMosaic Idealize.ShloMosaic.ValueIdx
open Idealize.ShloMosaic.TcCoe Idealize.SL.Sem
open Idealize.ShloMosaic.Pipeline (Dat)

/-! ## The log-softmax of one row -/

/-- The word of minus infinity read as an extended real. -/
abbrev negInf : EReal := Ideal.ofBits .f32 0xFF800000#32

/-- A row's maximum, never below minus infinity. -/
def rowTop {n : ℕ} (row : Fin n → EReal) : EReal :=
  max negInf ((Finset.univ : Finset (Fin n)).fold max negInf row)

/-- The log-softmax of one row of extended reals at entry `q`: the entry minus the row's maximum, minus the logarithm
    of the sum over the row of the exponentials of the entries minus the row's maximum. -/
def rowLogSoftmax {n : ℕ} (row : Fin n → EReal) (q : Fin n) : EReal :=
  (row q - rowTop row) - Ideal.log (∑ k : Fin n, Ideal.exp (row k - rowTop row))

/-! ## Elementwise exponential and logarithm at an index: one function in a kernel and on the host -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-! ## The kernel's payload at an index -/

section Payload
variable (hφ : FKind.Formats FTy.f32)
  (hm : (0xFF800000#32 : BitVec FTy.f32.bits) = FKind.maximumf.neutral FTy.f32 hφ)
  (ha : (0x00000000#32 : BitVec FTy.f32.bits) = FKind.add.neutral FTy.f32 hφ)

/-- Each row's maximum (never below minus infinity) laid along the row's sixteen entries, as the kernel computes it from a
    block `y`: reduce, compare with minus infinity, keep the axis, broadcast. -/
abbrev topAlong (y : FVec Ideal S5000x16 .f32) : FVec Ideal S5000x16 .f32 :=
  broadcastTo S5000x16
    (shapeCast S5000x1
      (maximumf (broadcast S5000 (FloatOps.ofBits (F := Ideal) .f32 0xFF800000#32))
        (multiReduction (F := Ideal) .maximumf [1] S5000 y 0xFF800000#32 reduces_S5000x16_S5000 hφ hm))
      shapeCasts_S5000_S5000x1)
    broadcasts_S5000x1_S5000x16

/-- It reads, anywhere in row `p`, the top of row `p`. -/
theorem topAlong_apply (y : FVec Ideal S5000x16 .f32) (p : Fin 5000) (k : Fin 16) :
    topAlong hφ hm y (ix2 p k) = rowTop (fun k => y (ix2 p k)) := by
  unfold topAlong
  rw [Cert.LibKeepdims.broadcastTo_a1_ab_apply, Cert.LibKeepdims.shapeCast_a_a1_apply, maximumf_apply, broadcast_apply,
    Cert.LibKeepdims.multiReduction_maximumf_axis1]
  rfl

/-- The block's entry minus its row's top. -/
theorem shift_apply (y : FVec Ideal S5000x16 .f32) (p : Fin 5000) (k : Fin 16) :
    subf y (topAlong hφ hm y) (ix2 p k) = y (ix2 p k) - rowTop (fun k => y (ix2 p k)) := by
  rw [subf_apply, topAlong_apply]

/-- The sum over row `p` of the exponentials of the shifted entries. -/
theorem expSum_apply (y : FVec Ideal S5000x16 .f32) (p : Fin 5000) :
    multiReduction (F := Ideal) .add [1] S5000 (exp (subf y (topAlong hφ hm y))) 0x00000000#32 reduces_S5000x16_S5000 hφ ha (ix1 p)
      = ∑ k : Fin 16, Ideal.exp (y (ix2 p k) - rowTop (fun k => y (ix2 p k))) :=
  (Cert.LibKeepdims.multiReduction_add_axis1 _ _ _ hφ ha p).trans
    (Finset.sum_congr rfl fun k _ => by rw [exp_apply, shift_apply])

/-- The kernel's chain of operations after the bias, on a block `y`, at `(p, q)`: the log-softmax of row `p` at `q`. -/
theorem chain_apply (y : FVec Ideal S5000x16 .f32) (p : Fin 5000) (q : Fin 16) :
    subf (subf y (topAlong hφ hm y))
        (broadcastTo S5000x16
          (log (shapeCast S5000x1
            (multiReduction (F := Ideal) .add [1] S5000 (exp (subf y (topAlong hφ hm y))) 0x00000000#32 reduces_S5000x16_S5000 hφ ha)
            shapeCasts_S5000_S5000x1))
          broadcasts_S5000x1_S5000x16) (ix2 p q)
      = rowLogSoftmax (fun k => y (ix2 p k)) q := by
  rw [subf_apply, shift_apply, Cert.LibKeepdims.broadcastTo_a1_ab_apply, log_apply, Cert.LibKeepdims.shapeCast_a_a1_apply, expSum_apply]
  rfl

end Payload

/-- The bias row added to a block, at `(p, k)`. -/
theorem biased_apply (x : FVec Ideal S5000x16 .f32) (b : FVec Ideal S1x16 .f32) (p : Fin 5000) (k : Fin 16) :
    addf x (broadcastTo S5000x16 b broadcasts_S1x16_S5000x16) (ix2 p k) = x (ix2 p k) + b (ix2 0 k) := by
  rw [addf_apply, broadcastTo_1b_ab_apply]

/-- THE PAYLOAD AT AN INDEX: entry `(p, q)` of what the body stores is the log-softmax of row `p` of the biased block. -/
theorem pay_apply (x : Vec Ideal S5000x16 .f32) (b : Vec Ideal S1x16 .f32) (p : Fin 5000) (q : Fin 16) :
    Gen.k3_pay1 (F := Ideal) x b (ix2 p q) = rowLogSoftmax (fun k => x (ix2 p k) + b (ix2 0 k)) q := by
  unfold Gen.k3_pay1
  simp only [shapeCast_self]
  refine (chain_apply _ _ _ (addf x (broadcastTo S5000x16 b broadcasts_S1x16_S5000x16)) p q).trans ?_
  exact congrArg (fun row => rowLogSoftmax row q) (funext fun k => biased_apply x b p k)

/-! ## The whole-array function at an index -/

section Spec
variable (hb : S1x16.BroadcastsInDim S100000x16 (![0, 1] : Fin 2 → Fin S100000x16.rank))
  (hr : S100000x16.ReducesTo [1] S100000) (hu : 0 < S_.numel)
  (hs : S_.BroadcastsInDim S100000 (![] : Fin 0 → Fin S100000.rank))
  (hc : S100000.BroadcastsInDim Cert.Gcn.N1 (![0] : Fin 1 → Fin Cert.Gcn.N1.rank))
  (hcb : Cert.Gcn.N1.BroadcastsInDim S100000x16 (![0, 1] : Fin 2 → Fin S100000x16.rank))

/-- The host's row maximum at row `r` is the row's top. -/
theorem rowMax_apply (Y : FVec Ideal S100000x16 .f32) (r : Fin 100000) :
    Cert.Gcn.rowMax hr hu hs Y (ix1 r) = rowTop (fun k => Y (ix2 r k)) := by
  unfold Cert.Gcn.rowMax
  rw [maximumf_apply, Cert.RefOps.broadcastInDim_scalar_apply _ _ ix0, constant_apply, Cert.RefOps.hostReduce_max_cols_apply]
  rfl

/-- A vector laid along the rows reads, anywhere in row `r`, its entry `r`. -/
theorem alongRows_apply (v : FVec Ideal S100000 .f32) (r : Fin 100000) (k : Fin 16) :
    Cert.Gcn.alongRows hc hcb v (ix2 r k) = v (ix1 r) := by
  unfold Cert.Gcn.alongRows
  rw [Cert.RefOps.broadcastInDim_col_mat_apply, Cert.RefOps.broadcastInDim_vec_col_apply]

/-- The array's entry minus its row's top. -/
theorem shifted_apply (Y : FVec Ideal S100000x16 .f32) (r : Fin 100000) (k : Fin 16) :
    Cert.Gcn.shifted hr hu hs hc hcb Y (ix2 r k) = Y (ix2 r k) - rowTop (fun k => Y (ix2 r k)) := by
  unfold Cert.Gcn.shifted
  rw [subf_apply, alongRows_apply, rowMax_apply]

/-- The host's log-softmax at `(r, q)`: the log-softmax of row `r` at `q`. -/
theorem logSoftmax_apply (Y : FVec Ideal S100000x16 .f32) (r : Fin 100000) (q : Fin 16) :
    Cert.Gcn.logSoftmax hr hu hs hc hcb Y (ix2 r q) = rowLogSoftmax (fun k => Y (ix2 r k)) q := by
  unfold Cert.Gcn.logSoftmax
  rw [subf_apply, shifted_apply, Cert.RefOps.broadcastInDim_col_mat_apply, hostLog_apply,
    Cert.RefOps.broadcastInDim_vec_col_apply, Cert.RefOps.hostReduceAdd_cols_apply]
  have hsum : ∑ k : Fin 16, Host.exp (Cert.Gcn.shifted hr hu hs hc hcb Y) (ix2 r k)
      = ∑ k : Fin 16, Ideal.exp (Y (ix2 r k) - rowTop (fun k => Y (ix2 r k))) :=
    Finset.sum_congr rfl fun k _ => by rw [hostExp_apply, shifted_apply]
  rw [hsum]
  rfl

/-- The bias row added to the array, at `(r, k)`. -/
theorem biased16_apply (A : FVec Ideal S100000x16 .f32) (B : FVec Ideal S1x16 .f32) (r : Fin 100000) (k : Fin 16) :
    Cert.Gcn.biased16 hb A B (ix2 r k) = A (ix2 r k) + B (ix2 0 k) := by
  unfold Cert.Gcn.biased16
  rw [addf_apply, Cert.RefOps.broadcastInDim_row_mat_apply]

/-- THE WHOLE-ARRAY FUNCTION AT AN INDEX: entry `(r, q)` is the log-softmax of row `r` of the biased array. -/
theorem spec_apply (A : FVec Ideal S100000x16 .f32) (B : FVec Ideal S1x16 .f32) (r : Fin 100000) (q : Fin 16) :
    Cert.Gcn.biasLogSoftmax hb hr hu hs hc hcb A B (ix2 r q) = rowLogSoftmax (fun k => A (ix2 r k) + B (ix2 0 k)) q := by
  unfold Cert.Gcn.biasLogSoftmax
  rw [logSoftmax_apply]
  exact congrArg (fun row => rowLogSoftmax row q) (funext fun k => biased16_apply hb A B r k)

end Spec

/-! ## From blocks to the array -/

theorem hz : (![0, 0] : Fin 2 → Nat) = fun _ => 0 := funext fun a => by fin_cases a <;> rfl

/-- The printed index maps, decided over the grid: at point `t` the two row-block windows sit at block `(t, 0)` and the
    bias row's window at block `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block of the output is some point's. -/
theorem idx_onto : ∀ q0 : Fin 20, ∃ t : Fin cfg3.N, win3_2.index t (0 : Fin 2) = q0.val ∧ win3_2.index t (1 : Fin 2) = 0 :=
  (by decide +kernel : ∀ q0 : Fin 20, ∃ t : Fin grid3.N, _)

/-- Row `p` of point `t`'s block is row `5000 t + p` of the array. -/
def rowOf (t : Fin cfg3.N) (p : Fin 5000) : Fin 100000 :=
  ⟨5000 * t.val + p.val, by
    have ht : t.val < 20 := lt_of_lt_of_eq t.isLt Gen.N_3
    have hp := p.isLt
    omega⟩

section Blocks
variable (V : (c : Dev nD) → (b : Ref sig .tc) → Buf (Elt Ideal) ((c : Thread nD τ).loc b))

/-- The first window's block at point `t`, read at `(p, k)`: the array at `(5000 t + p, k)`. -/
theorem blk0_apply (c : Dev nD) (t : Fin cfg3.N) (p : Fin 5000) (k : Fin 16) :
    (Gen.iblk3 V c 0 t : Vec Ideal S5000x16 .f32) (ix2 p k)
      = (V c main_v79 : S100000x16.Idx → Elt Ideal .f32) (ix2 (rowOf t p) k) := by
  obtain ⟨e0, e1, -⟩ := idx_facts t
  unfold Gen.iblk3
  rw [View.read_apply]
  show (V c main_v79 : S100000x16.Idx → Elt Ideal .f32) (((cfg3.win 0).blk t).view.emb (ix2 p k)) = _
  refine congrArg (V c main_v79 : S100000x16.Idx → Elt Ideal .f32) (funext fun a => Fin.ext ?_)
  match a with
  | ⟨0, _⟩ => show win3_0.index t (0 : Fin 2) * 5000 + 1 * p.val = 5000 * t.val + p.val; omega
  | ⟨1, _⟩ => show win3_0.index t (1 : Fin 2) * 16 + 1 * k.val = k.val; omega

/-- The second window's block at any point is the bias row. -/
theorem blk1_apply (c : Dev nD) (t : Fin cfg3.N) (k : Fin 16) :
    (Gen.iblk3 V c 1 t : Vec Ideal S1x16 .f32) (ix2 0 k)
      = (V c main_v80 : S1x16.Idx → Elt Ideal .f32) (ix2 0 k) := by
  obtain ⟨-, -, e2, e3, -⟩ := idx_facts t
  unfold Gen.iblk3
  rw [View.read_apply]
  show (V c main_v80 : S1x16.Idx → Elt Ideal .f32) (((cfg3.win 1).blk t).view.emb (ix2 0 k)) = _
  refine congrArg (V c main_v80 : S1x16.Idx → Elt Ideal .f32) (funext fun a => Fin.ext ?_)
  match a with
  | ⟨0, _⟩ => show win3_1.index t (0 : Fin 2) * 1 + 1 * 0 = 0; omega
  | ⟨1, _⟩ => show win3_1.index t (1 : Fin 2) * 16 + 1 * k.val = k.val; omega

/-- Entry `(p, q)` of the output's block at point `t` sits in the array at `(5000 t + p, q)`. -/
theorem emb2_apply (t : Fin cfg3.N) (p : Fin 5000) (q : Fin 16) :
    ((cfg3.win 2).blk t).view.emb (ix2 p q) = (ix2 (rowOf t p) q : S100000x16.Idx) := by
  obtain ⟨-, -, -, -, e4, e5⟩ := idx_facts t
  funext a
  apply Fin.ext
  match a with
  | ⟨0, _⟩ => show win3_2.index t (0 : Fin 2) * 5000 + 1 * p.val = 5000 * t.val + p.val; omega
  | ⟨1, _⟩ => show win3_2.index t (1 : Fin 2) * 16 + 1 * q.val = q.val; omega

end Blocks

section Final
variable (V : (c : Dev nD) → (b : Ref sig .tc) → Buf (Elt Ideal) ((c : Thread nD τ).loc b))
variable (hb : S1x16.BroadcastsInDim S100000x16 (![0, 1] : Fin 2 → Fin S100000x16.rank))
  (hr : S100000x16.ReducesTo [1] S100000) (hu : 0 < S_.numel)
  (hs : S_.BroadcastsInDim S100000 (![] : Fin 0 → Fin S100000.rank))
  (hc : S100000.BroadcastsInDim Cert.Gcn.N1 (![0] : Fin 1 → Fin Cert.Gcn.N1.rank))
  (hcb : Cert.Gcn.N1.BroadcastsInDim S100000x16 (![0, 1] : Fin 2 → Fin S100000x16.rank))

/-- WHAT POINT `t` WRITES BACK is block `t` of the bias followed by the row-wise log-softmax of the two input arrays as the
    region finds them: the log-softmax of a row reads that row only, and the rows of the block are rows of the array. -/
theorem flushed_eq (c : Dev nD) (t : Fin cfg3.N) :
    (Gen.dat3 (F := Ideal) V c).flushed 2 t
      = ((cfg3.win 2).blk t).view.read (Elt Ideal)
          (Cert.Gcn.biasLogSoftmax hb hr hu hs hc hcb (V c main_v79) (V c main_v80)) := by
  show (cfg3.win 2).cut (grid3.coords t) ((Gen.dat3 V c).after 2 t) = _
  rw [Gen.after3_2]
  unfold Gen.out3_2
  rw [View.canon_unit_zero hz]
  simp only [View.ld_unit_zero (S := S5000x16) hz, View.ld_unit_zero (S := S1x16) hz]
  funext j
  obtain ⟨p, q, rfl⟩ : ∃ (p : Fin 5000) (q : Fin 16), j = ix2 p q := ⟨j 0, j 1, eq_ix2 j⟩
  show Gen.k3_pay1 (F := Ideal) (Gen.iblk3 V c 0 t) (Gen.iblk3 V c 1 t) (ix2 p q)
    = Cert.Gcn.biasLogSoftmax hb hr hu hs hc hcb (V c main_v79) (V c main_v80) (((cfg3.win 2).blk t).view.emb (ix2 p q))
  refine (pay_apply (Gen.iblk3 V c 0 t) (Gen.iblk3 V c 1 t) p q).trans ?_
  rw [emb2_apply, spec_apply]
  exact congrArg (fun row => rowLogSoftmax row q) (funext fun k => by rw [blk0_apply, blk1_apply])

/-- An index of the array is in point `t`'s block iff each coordinate is in the block's range on its axis. -/
theorem mem_blk (t : Fin cfg3.N) (i : S100000x16.Idx) :
    i ∈ ((cfg3.win 2).blk t).view.set ↔ ∀ a : Fin 2, win3_2.index t a * S5000x16.size a ≤ (i a).val
      ∧ (i a).val < win3_2.index t a * S5000x16.size a + S5000x16.size a := by
  show i ∈ ((View.whole main_v81).slice (win3_2.rect t)).set ↔ _
  rw [View.set_slice_whole, Rect.mem_set_unit]
  exact Iff.rfl

/-- Every index of the array is in the block of the point that handles its row: row `r` belongs to point `r / 5000`. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, h0, h1⟩ := idx_onto ⟨(i 0).val / 5000, by omega⟩
  have h0' : win3_2.index t (0 : Fin 2) = (i 0).val / 5000 := h0
  refine ⟨t, Gen.flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 16 ≤ (i 1).val ∧ (i 1).val < win3_2.index t (1 : Fin 2) * 16 + 16
    omega

end Final

end Cert.KernelIdeal.Arr.Lsm

namespace Cert.KernelIdeal.Arr

open Cert.KernelIdeal Cert.KernelIdeal.Gen Idealize.ShloMosaic Idealize.ShloMosaic.ValueIdx
open Idealize.ShloMosaic.TcCoe Idealize.SL.Sem

/-- THE ARRAY after region 3: the bias followed by the row-wise log-softmax of the region's two input arrays as it finds
    them. Every point writes back its block of that one function, and the twenty blocks cover the array. -/
theorem arr3 (V : (c : Dev nD) → (b : Ref sig .tc) → Buf (Elt Ideal) ((c : Thread nD τ).loc b)) (c : Dev nD)
    (hb : S1x16.BroadcastsInDim S100000x16 (![0, 1] : Fin 2 → Fin S100000x16.rank))
    (hr : S100000x16.ReducesTo [1] S100000) (hu : 0 < S_.numel)
    (hs : S_.BroadcastsInDim S100000 (![] : Fin 0 → Fin S100000.rank))
    (hc : S100000.BroadcastsInDim Cert.Gcn.N1 (![0] : Fin 1 → Fin Cert.Gcn.N1.rank))
    (hcb : Cert.Gcn.N1.BroadcastsInDim S100000x16 (![0, 1] : Fin 2 → Fin S100000x16.rank)) :
    (Gen.dat3 (F := Ideal) V c).arrAt 2 cfg3.N = Cert.Gcn.biasLogSoftmax hb hr hu hs hc hcb (V c main_v79) (V c main_v80) :=
  (Gen.dat3 (F := Ideal) V c).arrAt_eq_of_cover 2 (Cert.Gcn.biasLogSoftmax hb hr hu hs hc hcb (V c main_v79) (V c main_v80))
    (fun t _ => Lsm.flushed_eq V hb hr hu hs hc hcb c t) Lsm.cover

end Cert.KernelIdeal.Arr

end
-- ==== Proof.Bridge.lean ====
/-
  The kernel program and the reference end at the same array. Both compute, on a graph of 100000 nodes with the
  self loops appended, two rounds of: a linear map of the node features, the normalized aggregation over the edges,
  a bias — the first round followed by the rectifier, the second by the row-wise log-softmax. The kernel program
  runs the four dense stages as grid regions, twenty row blocks each; the reference runs them as whole-array host
  operations. Stage by stage the buffers the next stage reads agree: the shared host arithmetic by evaluating the
  same operations on equal operands, the dense stages because a region's output array is the whole-array function of
  the arrays it reads.
-/
import proofs.«103994_j41970420418160_1_alg».proof.Proof.Gen.KernelIdeal.Frame
import proofs.«103994_j41970420418160_1_alg».proof.Proof.RefRun
import proofs.«103994_j41970420418160_1_alg».proof.Proof.Spec
import proofs.«103994_j41970420418160_1_alg».proof.Proof.Keeps
import proofs.«103994_j41970420418160_1_alg».proof.Proof.HostChains
import proofs.«103994_j41970420418160_1_alg».proof.Proof.ArrLinear
import proofs.«103994_j41970420418160_1_alg».proof.Proof.ArrBiasRelu
import proofs.«103994_j41970420418160_1_alg».proof.Proof.ArrLogSoftmax
import proofs.«103994_j41970420418160_1_alg».proof.Proof.LibHostRows
import Idealize.ShloMosaic.Lib.ValueIdx
import Idealize.ShloMosaic.Lib.Pipeline.Value

noncomputable section

namespace Cert.Bridge

open Idealize.ShloMosaic Idealize.ShloMosaic.TcCoe Idealize.SL.Sem Idealize.ShloMosaic.StableHlo Idealize.ShloMosaic.ValueIdx
open Cert

/-- A vector recast as a one-row matrix is the vector laid along that row. -/
theorem row_cast_eq {α : Type} {C : ℕ} (x : (⟨1, ![C]⟩ : Shape).Idx → α)
    (hc : (⟨1, ![C]⟩ : Shape).ShapeCasts ⟨2, ![1, C]⟩)
    (hb : (⟨1, ![C]⟩ : Shape).BroadcastsInDim ⟨2, ![1, C]⟩ ![1]) :
    shapeCast ⟨2, ![1, C]⟩ x hc = broadcastInDim ⟨2, ![1, C]⟩ ![1] hb x := by
  funext j
  obtain ⟨z, q, rfl⟩ : ∃ (z : Fin 1) (q : Fin C), j = ix2 z q := ⟨j 0, j 1, eq_ix2 j⟩
  rw [Cert.RefOps.broadcastInDim_vec_row_apply]
  refine shapeCast_apply x hc (ix2 z q) (ix1 q) ?_
  have hz : z.val = 0 := by omega
  rw [Shape.rowMajor_val_two, Shape.rowMajor_val_one]
  show q.val = z.val * C + q.val
  rw [hz, Nat.zero_mul, Nat.zero_add]

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)
variable (c : Dev KernelIdeal.nD)

/-! ## The reference's buffer contents after each piece of its line -/

def U0 : RV := launchContents m' c
def U1 : RV := after ReferenceIdeal.Line.opsA (U0 m' c)
def U2 : RV := after ReferenceIdeal.Line.opsD1 (U1 m' c)
def U3 : RV := after ReferenceIdeal.Line.opsB (U2 m' c)
def U4 : RV := after ReferenceIdeal.Line.opsE1 (U3 m' c)
def U5 : RV := after ReferenceIdeal.Line.opsD2 (U4 m' c)
def U6 : RV := after ReferenceIdeal.Line.opsC (U5 m' c)
def U7 : RV := after ReferenceIdeal.Line.opsE2 (U6 m' c)

theorem fin_eq : ReferenceIdeal.Line.fin (launchContents m' c) = U7 m' c := rfl

open KernelIdeal.Gen in
/-- What the two programs were launched with: the six argument arrays agree. -/
structure Launched : Prop where
  a0 : U0 m' c ReferenceIdeal.main_arg0 = W0 m ρ c KernelIdeal.main_arg0
  a1 : U0 m' c ReferenceIdeal.main_arg1 = W0 m ρ c KernelIdeal.main_arg1
  a2 : U0 m' c ReferenceIdeal.main_arg2 = W0 m ρ c KernelIdeal.main_arg2
  a3 : U0 m' c ReferenceIdeal.main_arg3 = W0 m ρ c KernelIdeal.main_arg3
  a4 : U0 m' c ReferenceIdeal.main_arg4 = W0 m ρ c KernelIdeal.main_arg4
  a5 : U0 m' c ReferenceIdeal.main_arg5 = W0 m ρ c KernelIdeal.main_arg5

section Stages
open KernelIdeal.Gen
variable {m ρ m' c} (hl : Launched m ρ m' c)
include hl

/-! ## After the edge lists and the normalizers -/

theorem s1_arg0 : U1 m' c ReferenceIdeal.main_arg0 = W2 m ρ c KernelIdeal.main_arg0 :=
  (keepA_arg0 (U0 m' c)).trans (hl.a0.trans (keepK0_arg0 (W0 m ρ c)).symm)
theorem s1_arg2 : U1 m' c ReferenceIdeal.main_arg2 = W2 m ρ c KernelIdeal.main_arg2 :=
  (keepA_arg2 (U0 m' c)).trans (hl.a2.trans (keepK0_arg2 (W0 m ρ c)).symm)
theorem s1_arg3 : U1 m' c ReferenceIdeal.main_arg3 = W2 m ρ c KernelIdeal.main_arg3 :=
  (keepA_arg3 (U0 m' c)).trans (hl.a3.trans (keepK0_arg3 (W0 m ρ c)).symm)
theorem s1_arg4 : U1 m' c ReferenceIdeal.main_arg4 = W2 m ρ c KernelIdeal.main_arg4 :=
  (keepA_arg4 (U0 m' c)).trans (hl.a4.trans (keepK0_arg4 (W0 m ρ c)).symm)
theorem s1_arg5 : U1 m' c ReferenceIdeal.main_arg5 = W2 m ρ c KernelIdeal.main_arg5 :=
  (keepA_arg5 (U0 m' c)).trans (hl.a5.trans (keepK0_arg5 (W0 m ρ c)).symm)
theorem s1_v3 : U1 m' c ReferenceIdeal.main_v3 = W2 m ρ c KernelIdeal.main_v3 := src_eq (U0 m' c) (W0 m ρ c) hl.a1
theorem s1_v6 : U1 m' c ReferenceIdeal.main_v6 = W2 m ρ c KernelIdeal.main_v6 := dst_eq (U0 m' c) (W0 m ρ c) hl.a1
theorem s1_v19 : U1 m' c ReferenceIdeal.main_v19 = W2 m ρ c KernelIdeal.main_v19 := dinv_eq (U0 m' c) (W0 m ρ c) hl.a1

/-! ## After the first linear map -/

theorem s2_arg3 : U2 m' c ReferenceIdeal.main_arg3 = W3 m ρ c KernelIdeal.main_arg3 :=
  (keepD1_arg3 (U1 m' c)).trans ((s1_arg3 hl).trans (W3_of_ne m ρ c KernelIdeal.main_arg3 (by decide)).symm)
theorem s2_arg4 : U2 m' c ReferenceIdeal.main_arg4 = W3 m ρ c KernelIdeal.main_arg4 :=
  (keepD1_arg4 (U1 m' c)).trans ((s1_arg4 hl).trans (W3_of_ne m ρ c KernelIdeal.main_arg4 (by decide)).symm)
theorem s2_arg5 : U2 m' c ReferenceIdeal.main_arg5 = W3 m ρ c KernelIdeal.main_arg5 :=
  (keepD1_arg5 (U1 m' c)).trans ((s1_arg5 hl).trans (W3_of_ne m ρ c KernelIdeal.main_arg5 (by decide)).symm)
theorem s2_v3 : U2 m' c ReferenceIdeal.main_v3 = W3 m ρ c KernelIdeal.main_v3 :=
  (keepD1_v3 (U1 m' c)).trans ((s1_v3 hl).trans (W3_of_ne m ρ c KernelIdeal.main_v3 (by decide)).symm)
theorem s2_v6 : U2 m' c ReferenceIdeal.main_v6 = W3 m ρ c KernelIdeal.main_v6 :=
  (keepD1_v6 (U1 m' c)).trans ((s1_v6 hl).trans (W3_of_ne m ρ c KernelIdeal.main_v6 (by decide)).symm)
theorem s2_v19 : U2 m' c ReferenceIdeal.main_v19 = W3 m ρ c KernelIdeal.main_v19 :=
  (keepD1_v19 (U1 m' c)).trans ((s1_v19 hl).trans (W3_of_ne m ρ c KernelIdeal.main_v19 (by decide)).symm)

theorem s2_v20 : U2 m' c ReferenceIdeal.main_v20 = W3 m ρ c KernelIdeal.main_v20 := by
  refine (refD1 (U1 m' c)).trans ?_
  rw [s1_arg0 hl, s1_arg2 hl]
  exact ((W3_arr m ρ c 2).trans (KernelIdeal.Arr.arr0 (V2 m ρ) c
    ReferenceIdeal.Gen.dot_S100000x128_S128x64_S100000x64_1_0_0_1_n_n_wf)).symm

/-! ## After the first aggregation -/

theorem s3_arg3 : U3 m' c ReferenceIdeal.main_arg3 = W3 m ρ c KernelIdeal.main_arg3 :=
  (keepB_arg3 (U2 m' c)).trans (s2_arg3 hl)
theorem s3_arg4 : U3 m' c ReferenceIdeal.main_arg4 = W4 m ρ c KernelIdeal.main_arg4 :=
  (keepB_arg4 (U2 m' c)).trans ((s2_arg4 hl).trans (keepK1_arg4 (W3 m ρ c)).symm)
theorem s3_arg5 : U3 m' c ReferenceIdeal.main_arg5 = W4 m ρ c KernelIdeal.main_arg5 :=
  (keepB_arg5 (U2 m' c)).trans ((s2_arg5 hl).trans (keepK1_arg5 (W3 m ρ c)).symm)
theorem s3_v3 : U3 m' c ReferenceIdeal.main_v3 = W4 m ρ c KernelIdeal.main_v3 :=
  (keepB_v3 (U2 m' c)).trans ((s2_v3 hl).trans (keepK1_v3 (W3 m ρ c)).symm)
theorem s3_v6 : U3 m' c ReferenceIdeal.main_v6 = W4 m ρ c KernelIdeal.main_v6 :=
  (keepB_v6 (U2 m' c)).trans ((s2_v6 hl).trans (keepK1_v6 (W3 m ρ c)).symm)
theorem s3_v19 : U3 m' c ReferenceIdeal.main_v19 = W4 m ρ c KernelIdeal.main_v19 :=
  (keepB_v19 (U2 m' c)).trans ((s2_v19 hl).trans (keepK1_v19 (W3 m ρ c)).symm)
theorem s3_v48 : U3 m' c ReferenceIdeal.main_v48 = W4 m ρ c KernelIdeal.main_v48 :=
  agg64_eq (U2 m' c) (W3 m ρ c) (s2_v3 hl) (s2_v6 hl) (s2_v19 hl) (s2_v20 hl)

/-! ## After the first bias and the rectifier -/

theorem s4_arg4 : U4 m' c ReferenceIdeal.main_arg4 = W5 m ρ c KernelIdeal.main_arg4 :=
  (keepE1_arg4 (U3 m' c)).trans ((s3_arg4 hl).trans (W5_of_ne m ρ c KernelIdeal.main_arg4 (by decide)).symm)
theorem s4_arg5 : U4 m' c ReferenceIdeal.main_arg5 = W5 m ρ c KernelIdeal.main_arg5 :=
  (keepE1_arg5 (U3 m' c)).trans ((s3_arg5 hl).trans (W5_of_ne m ρ c KernelIdeal.main_arg5 (by decide)).symm)
theorem s4_v3 : U4 m' c ReferenceIdeal.main_v3 = W5 m ρ c KernelIdeal.main_v3 :=
  (keepE1_v3 (U3 m' c)).trans ((s3_v3 hl).trans (W5_of_ne m ρ c KernelIdeal.main_v3 (by decide)).symm)
theorem s4_v6 : U4 m' c ReferenceIdeal.main_v6 = W5 m ρ c KernelIdeal.main_v6 :=
  (keepE1_v6 (U3 m' c)).trans ((s3_v6 hl).trans (W5_of_ne m ρ c KernelIdeal.main_v6 (by decide)).symm)
theorem s4_v19 : U4 m' c ReferenceIdeal.main_v19 = W5 m ρ c KernelIdeal.main_v19 :=
  (keepE1_v19 (U3 m' c)).trans ((s3_v19 hl).trans (W5_of_ne m ρ c KernelIdeal.main_v19 (by decide)).symm)

theorem s4_v52 : U4 m' c ReferenceIdeal.main_v52 = W5 m ρ c KernelIdeal.main_v50 := by
  refine (refE1 (U3 m' c)).trans ?_
  rw [s3_v48 hl, s3_arg3 hl,
    ← row_cast_eq (W3 m ρ c KernelIdeal.main_arg3) KernelIdeal.Gen.shapeCasts_S64_S1x64 ReferenceIdeal.Gen.bcast_S64_S1x64_1,
    ← brow64 (W3 m ρ c)]
  exact ((W5_arr m ρ c 2).trans (KernelIdeal.Arr.arr1 (V4 m ρ) c
    ReferenceIdeal.Gen.bcast_S1x64_S100000x64_0_1 ReferenceIdeal.Gen.bcast_S_S100000x64)).symm

/-! ## After the second linear map -/

theorem s5_arg5 : U5 m' c ReferenceIdeal.main_arg5 = W6 m ρ c KernelIdeal.main_arg5 :=
  (keepD2_arg5 (U4 m' c)).trans ((s4_arg5 hl).trans (W6_of_ne m ρ c KernelIdeal.main_arg5 (by decide)).symm)
theorem s5_v3 : U5 m' c ReferenceIdeal.main_v3 = W6 m ρ c KernelIdeal.main_v3 :=
  (keepD2_v3 (U4 m' c)).trans ((s4_v3 hl).trans (W6_of_ne m ρ c KernelIdeal.main_v3 (by decide)).symm)
theorem s5_v6 : U5 m' c ReferenceIdeal.main_v6 = W6 m ρ c KernelIdeal.main_v6 :=
  (keepD2_v6 (U4 m' c)).trans ((s4_v6 hl).trans (W6_of_ne m ρ c KernelIdeal.main_v6 (by decide)).symm)
theorem s5_v19 : U5 m' c ReferenceIdeal.main_v19 = W6 m ρ c KernelIdeal.main_v19 :=
  (keepD2_v19 (U4 m' c)).trans ((s4_v19 hl).trans (W6_of_ne m ρ c KernelIdeal.main_v19 (by decide)).symm)

theorem s5_v53 : U5 m' c ReferenceIdeal.main_v53 = W6 m ρ c KernelIdeal.main_v51 := by
  refine (refD2 (U4 m' c)).trans ?_
  rw [s4_v52 hl, s4_arg4 hl]
  exact ((W6_arr m ρ c 2).trans (KernelIdeal.Arr.arr2 (V5 m ρ) c
    ReferenceIdeal.Gen.dot_S100000x64_S64x16_S100000x16_1_0_0_1_n_n_wf)).symm

/-! ## After the second aggregation -/

theorem s6_v81 : U6 m' c ReferenceIdeal.main_v81 = W7 m ρ c KernelIdeal.main_v79 :=
  agg16_eq (U5 m' c) (W6 m ρ c) (s5_v3 hl) (s5_v6 hl) (s5_v19 hl) (s5_v53 hl)
theorem s6_arg5 : U6 m' c ReferenceIdeal.main_arg5 = W6 m ρ c KernelIdeal.main_arg5 :=
  (keepC_arg5 (U5 m' c)).trans (s5_arg5 hl)

/-! ## The results -/

/-- The reference's result and the kernel program's result are one array. -/
theorem result_eq : U7 m' c ReferenceIdeal.main_v85 = W8 m ρ c KernelIdeal.main_v81 := by
  refine (refE2 (U6 m' c)).trans ?_
  rw [s6_v81 hl, s6_arg5 hl,
    ← row_cast_eq (W6 m ρ c KernelIdeal.main_arg5) KernelIdeal.Gen.shapeCasts_S16_S1x16 ReferenceIdeal.Gen.bcast_S16_S1x16_1,
    ← brow16 (W6 m ρ c)]
  exact ((W8_arr m ρ c 2).trans (KernelIdeal.Arr.arr3 (V7 m ρ) c
    ReferenceIdeal.Gen.bcast_S1x16_S100000x16_0_1 ReferenceIdeal.Gen.reducesTo_S100000x16_S100000_d1 ReferenceIdeal.Gen.h_S_
    ReferenceIdeal.Gen.bcast_S_S100000 ReferenceIdeal.Gen.bcast_S100000_S100000x1_0
    ReferenceIdeal.Gen.bcast_S100000x1_S100000x16_0_1)).symm

end Stages

end Cert.Bridge

end
-- ==== Proof.lean ====
/-
  A two-layer graph convolution on 100000 nodes: the kernel program against its reference.

  Both programs append the self loops to the edge list, count the in-degrees and take their inverse square roots, and
  then run two rounds of "linear map, normalized aggregation over the edges, bias" — the first round followed by the
  rectifier, the second by the row-wise log-softmax. The kernel program computes the four dense stages (the two
  matrix products, bias with rectifier, bias with log-softmax) as grid regions over twenty blocks of 5000 rows and
  leaves the gathers and scatter-adds over the edges to the host; the reference is host operations throughout.

  Over the extended reals a block of a matrix product is the same sums of products as the corresponding rows of the
  whole product (rounding the factors to a shorter format is the identity there), the bias, the rectifier and the
  log-softmax act row by row, and the aggregation over the edges is literally the same operations on both sides. So
  the two results are one array, with no condition on the inputs beyond what the claim states: no law of arithmetic
  that fails at the infinities is used, only that equal operations of equal operands are equal.

  The three frames: the two kernel programs by their generated frame certificates; the reference by its run, a
  straight line of host operations none of which writes an argument. The idealization rewrote nothing, so it
  preserves the program trivially.
-/
import proofs.«103994_j41970420418160_1_alg».proof.Defs
import proofs.«103994_j41970420418160_1_alg».proof.Proof.Gen.Kernel
import proofs.«103994_j41970420418160_1_alg».proof.Proof.Gen.Kernel.Frame
import proofs.«103994_j41970420418160_1_alg».proof.Proof.Gen.KernelIdeal
import proofs.«103994_j41970420418160_1_alg».proof.Proof.Gen.KernelIdeal.Frame
import proofs.«103994_j41970420418160_1_alg».proof.Proof.Gen.ReferenceIdeal
import proofs.«103994_j41970420418160_1_alg».proof.Proof.Gen.Pre_finite_inputs
import proofs.«103994_j41970420418160_1_alg».proof.Proof.KernelRun
import proofs.«103994_j41970420418160_1_alg».proof.Proof.RefRun
import proofs.«103994_j41970420418160_1_alg».proof.Proof.RefArgs
import proofs.«103994_j41970420418160_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments as launched: its line of host operations writes none of them. -/
theorem frame_referenceIdeal : Cert.frame_ReferenceIdeal := fun m ρ _ =>
  (θ_run Cert.ReferenceIdeal.defs _ _).mono (fun r h c =>
      ⟨(h c Cert.ReferenceIdeal.main_arg0).trans (Cert.Bridge.fin_arg0 _),
       (h c Cert.ReferenceIdeal.main_arg1).trans (Cert.Bridge.fin_arg1 _),
       (h c Cert.ReferenceIdeal.main_arg2).trans (Cert.Bridge.fin_arg2 _),
       (h c Cert.ReferenceIdeal.main_arg3).trans (Cert.Bridge.fin_arg3 _),
       (h c Cert.ReferenceIdeal.main_arg4).trans (Cert.Bridge.fin_arg4 _),
       (h c Cert.ReferenceIdeal.main_arg5).trans (Cert.Bridge.fin_arg5 _)⟩)
    (Cert.ReferenceIdeal.Line.run (F := Ideal) m ρ)

/-- The idealization rewrote no operation. -/
theorem preserves : Cert.preserves_Kernel_KernelIdeal := trivial

/-- From memories that agree on the six arguments both programs run to the end, and the kernel program's result array
    is the reference's. -/
theorem algebraic : Cert.algebraic_KernelIdeal_ReferenceIdeal := by
  intro m ρ m' ρ' _ hagree
  refine ⟨fun c => Cert.KernelIdeal.Gen.W8 m ρ c Cert.KernelIdeal.main_v81, Cert.KernelIdeal.RunValue.run m ρ, ?_⟩
  refine (θ_run Cert.ReferenceIdeal.defs _ _).mono (fun r h c => ?_) (Cert.ReferenceIdeal.Line.run (F := Ideal) m' ρ')
  have hl : Cert.Bridge.Launched m ρ m' c :=
    ⟨(hagree c).1, (hagree c).2.1, (hagree c).2.2.1, (hagree c).2.2.2.1, (hagree c).2.2.2.2.1, (hagree c).2.2.2.2.2⟩
  exact ⟨(h c Cert.ReferenceIdeal.main_v85).trans (Cert.Bridge.result_eq hl),
    (h c Cert.ReferenceIdeal.main_arg0).trans (Cert.Bridge.fin_arg0 _),
    (h c Cert.ReferenceIdeal.main_arg1).trans (Cert.Bridge.fin_arg1 _),
    (h c Cert.ReferenceIdeal.main_arg2).trans (Cert.Bridge.fin_arg2 _),
    (h c Cert.ReferenceIdeal.main_arg3).trans (Cert.Bridge.fin_arg3 _),
    (h c Cert.ReferenceIdeal.main_arg4).trans (Cert.Bridge.fin_arg4 _),
    (h c Cert.ReferenceIdeal.main_arg5).trans (Cert.Bridge.fin_arg5 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
